-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x64x64 : Shape := ⟨4, ![4, 64, 64, 64]⟩
abbrev S_ : Shape := ⟨0, ![]⟩

class Facts : Prop where
  bcast_S_S4x64x64x64 : S_.BroadcastsInDim S4x64x64x64 (![] : Fin 0 → Fin S4x64x64x64.rank)
  reducesTo_S4x64x64x64_S_d0_1_2_3 : S4x64x64x64.ReducesTo [0, 1, 2, 3] S_
  h_S_ : 0 < S_.numel

variable [Facts]

def fn {F : FTy → Type} [FloatOps F] (main_arg0 : FVec F S4x64x64x64 .f32) (main_arg1 : FVec F S4x64x64x64 .f32) : IVec S_ 1 :=
  let main_v0 : FVec F S4x64x64x64 .f32 := Host.absf main_arg0
  let main_cst : FVec F S_ .f32 := constant S_ .f32 0x7F800000#32
  let main_v1 : FVec F S4x64x64x64 .f32 := broadcastInDim S4x64x64x64 ![] bcast_S_S4x64x64x64 main_cst
  let main_v2 : IVec S4x64x64x64 1 := cmpf .olt main_v0 main_v1
  let main_c : IVec S_ 1 := constantI S_ 1 1#1
  let main_v3 : IVec S_ 1 := (fun x v => Host.reduce IntOp.andi x v reducesTo_S4x64x64x64_S_d0_1_2_3 h_S_) main_v2 main_c
  let main_v4 : FVec F S4x64x64x64 .f32 := Host.absf main_arg1
  let main_cst_0 : FVec F S_ .f32 := constant S_ .f32 0x7F800000#32
  let main_v5 : FVec F S4x64x64x64 .f32 := broadcastInDim S4x64x64x64 ![] bcast_S_S4x64x64x64 main_cst_0
  let main_v6 : IVec S4x64x64x64 1 := cmpf .olt main_v4 main_v5
  let main_c_1 : IVec S_ 1 := constantI S_ 1 1#1
  let main_v7 : IVec S_ 1 := (fun x v => Host.reduce IntOp.andi x v reducesTo_S4x64x64x64_S_d0_1_2_3 h_S_) main_v6 main_c_1
  let main_v8 : IVec S_ 1 := andi main_v3 main_v7
  main_v8
-- ==== Kernel.lean ====
abbrev S4x64x64x64 : Shape := ⟨4, ![4, 64, 64, 64]⟩
abbrev S4x64x4096 : Shape := ⟨3, ![4, 64, 4096]⟩
abbrev S_ : Shape := ⟨0, ![]⟩
abbrev S4x4096 : Shape := ⟨2, ![4, 4096]⟩
abbrev S4x1x4096 : Shape := ⟨3, ![4, 1, 4096]⟩
abbrev S16384 : Shape := ⟨1, ![16384]⟩
abbrev S1x64x256 : Shape := ⟨3, ![1, 64, 256]⟩
abbrev S1x64x4096 : Shape := ⟨3, ![1, 64, 4096]⟩
abbrev S256 : Shape := ⟨1, ![256]⟩
abbrev S1x4096 : Shape := ⟨2, ![1, 4096]⟩
abbrev S64x4096 : Shape := ⟨2, ![64, 4096]⟩
abbrev S4096 : Shape := ⟨1, ![4096]⟩
abbrev S64x256 : Shape := ⟨2, ![64, 256]⟩
abbrev S1x256 : Shape := ⟨2, ![1, 256]⟩
abbrev S256x1 : Shape := ⟨2, ![256, 1]⟩
abbrev S256x4096 : Shape := ⟨2, ![256, 4096]⟩

abbrev nBuf : Space → Nat
  | .hbm => 35
  | .vmem => 7
  | .smem => 0
  | _ => 0

abbrev bufTy : (tb : Table) → Fin (tcTables nBuf tb) → BufTy
  | .hbm, ⟨0, _⟩ => ⟨S4x64x64x64, .f32⟩
  | .hbm, ⟨1, _⟩ => ⟨S4x64x64x64, .f32⟩
  | .hbm, ⟨2, _⟩ => ⟨S4x64x4096, .f32⟩
  | .hbm, ⟨3, _⟩ => ⟨S4x64x4096, .f32⟩
  | .hbm, ⟨4, _⟩ => ⟨S4x64x4096, .f32⟩
  | .hbm, ⟨5, _⟩ => ⟨S_, .f32⟩
  | .hbm, ⟨6, _⟩ => ⟨S4x4096, .f32⟩
  | .hbm, ⟨7, _⟩ => ⟨S4x1x4096, .f32⟩
  | .hbm, ⟨8, _⟩ => ⟨S4x1x4096, .f32⟩
  | .hbm, ⟨9, _⟩ => ⟨S_, .f32⟩
  | .hbm, ⟨10, _⟩ => ⟨S4x1x4096, .f32⟩
  | .hbm, ⟨11, _⟩ => ⟨S4x1x4096, .f32⟩
  | .hbm, ⟨12, _⟩ => ⟨S4x64x4096, .f32⟩
  | .hbm, ⟨13, _⟩ => ⟨S4x64x4096, .f32⟩
  | .hbm, ⟨14, _⟩ => ⟨S4x64x4096, .f32⟩
  | .hbm, ⟨15, _⟩ => ⟨S_, .f32⟩
  | .hbm, ⟨16, _⟩ => ⟨S4x4096, .f32⟩
  | .hbm, ⟨17, _⟩ => ⟨S4x1x4096, .f32⟩
  | .hbm, ⟨18, _⟩ => ⟨S4x1x4096, .f32⟩
  | .hbm, ⟨19, _⟩ => ⟨S_, .f32⟩
  | .hbm, ⟨20, _⟩ => ⟨S4x1x4096, .f32⟩
  | .hbm, ⟨21, _⟩ => ⟨S4x1x4096, .f32⟩
  | .hbm, ⟨22, _⟩ => ⟨S4x64x4096, .f32⟩
  | .hbm, ⟨23, _⟩ => ⟨S4x64x4096, .f32⟩
  | .hbm, ⟨24, _⟩ => ⟨S16384, .f32⟩
  | .hbm, ⟨25, _⟩ => ⟨S4x4096, .f32⟩
  | .hbm, ⟨26, _⟩ => ⟨S_, .f32⟩
  | .hbm, ⟨27, _⟩ => ⟨S4x4096, .f32⟩
  | .hbm, ⟨28, _⟩ => ⟨S4x4096, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S1x64x256, .f32⟩
  | .local _ .vmem, ⟨1, _⟩ => ⟨S1x64x256, .f32⟩
  | .local _ .vmem, ⟨2, _⟩ => ⟨S1x64x4096, .f32⟩
  | .local _ .vmem, ⟨3, _⟩ => ⟨S1x64x4096, .f32⟩
  | .local _ .vmem, ⟨4, _⟩ => ⟨S256, .f32⟩
  | .local _ .vmem, ⟨5, _⟩ => ⟨S256, .f32⟩
  | .local _ .vmem, ⟨6, _⟩ => ⟨S1x4096, .f32⟩
  | _, _ => ⟨S4x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  ![v1.toNat]

abbrev stage0_0 : Fin 2 → Memref sig .tc .vmem S1x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S4x64x64x64_S4x64x4096 : S4x64x64x64.ShapeCasts S4x64x4096
  reducesTo_S4x64x4096_S4x4096_d1 : S4x64x4096.ReducesTo [1] S4x4096
  h_S_ : 0 < S_.numel
  bcast_S4x4096_S4x1x4096_0_2 : S4x4096.BroadcastsInDim S4x1x4096 (![0, 2] : Fin 2 → Fin S4x1x4096.rank)
  bcast_S_S4x1x4096 : S_.BroadcastsInDim S4x1x4096 (![] : Fin 0 → Fin S4x1x4096.rank)
  bcast_S4x1x4096_S4x64x4096_0_1_2 : S4x1x4096.BroadcastsInDim S4x64x4096 (![0, 1, 2] : Fin 3 → Fin S4x64x4096.rank)
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  reduces_S64x4096_S4096 : S64x4096.Reduces [0] S4096
  shapeCasts_S4096_S1x4096 : S4096.ShapeCasts S1x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  reduces_S64x256_S256 : S64x256.Reduces [0] S256
  shapeCasts_S256_S1x256 : S256.ShapeCasts S1x256
  transposes_S1x256_p1_0_S256x1 : S1x256.Transposes [1, 0] S256x1
  broadcasts_S256x1_S256x4096 : S256x1.Broadcasts S256x4096
  broadcasts_S1x4096_S256x4096 : S1x4096.Broadcasts S256x4096
  reduces_S256x4096_S256 : S256x4096.Reduces [1] S256
  shapeCasts_S256_S256x1 : S256.ShapeCasts S256x1
  shapeCasts_S256x1_S256 : S256x1.ShapeCasts S256
  inb_S256_S256_0 : ∀ a, (![0] : Fin 1 → Nat) a + S256.size a ≤ S256.size a
  h_S256 : 0 < S256.numel
  shapeCasts_S16384_S4x4096 : S16384.ShapeCasts S4x4096
  bcast_S_S4x4096 : S_.BroadcastsInDim S4x4096 (![] : Fin 0 → Fin S4x4096.rank)
  reducesTo_S4x4096_S_d0_1 : S4x4096.ReducesTo [0, 1] S_
  dot_S64x256_S64x4096_S256x4096_0_0_1_1_n_n_wf : DotDims.WF S64x256 S64x4096 S256x4096 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x256.size a ≤ S4x64x4096.size a
  hwx0_0 : ∀ i : grid0.Coords, EltTy.bits .f32 = 32 ∨ (Rect.block (s := S4x64x4096) S1x64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x4096.size a ≤ S4x64x4096.size a
  hwx0_1 : ∀ i : grid0.Coords, EltTy.bits .f32 = 32 ∨ (Rect.block (s := S4x64x4096) S1x64x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S16384.size a
  hwx0_2 : ∀ i : grid0.Coords, EltTy.bits .f32 = 32 ∨ (Rect.block (s := S16384) S256.size (cc0_transform_2 i) (hinb0_2 i)).WholeWords (EltTy.packing .f32)

variable [Facts₀]

def dot_S64x256_S64x4096_S256x4096_0_0_1_1_n_n : DotDims S64x256 S64x4096 S256x4096 where
  lhsContracting := [0]
  rhsContracting := [0]
  lhsNonContracting := [1]
  rhsNonContracting := [1]
  lhsBatch := []
  rhsBatch := []
  wf := dot_S64x256_S64x4096_S256x4096_0_0_1_1_n_n_wf

abbrev win0_0 : Pipeline.Window sig grid0 :=
  Pipeline.Window.ofSpec (Memref.whole main_v6) S1x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1x64x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x64x64x64 : Shape := ⟨4, ![4, 64, 64, 64]⟩
abbrev S4x64x4096 : Shape := ⟨3, ![4, 64, 4096]⟩
abbrev S_ : Shape := ⟨0, ![]⟩
abbrev S4x4096 : Shape := ⟨2, ![4, 4096]⟩
abbrev S4x1x4096 : Shape := ⟨3, ![4, 1, 4096]⟩
abbrev S4x4096x64 : Shape := ⟨3, ![4, 4096, 64]⟩
abbrev S4x4096x1 : Shape := ⟨3, ![4, 4096, 1]⟩
abbrev S4x4096x4096 : Shape := ⟨3, ![4, 4096, 4096]⟩

abbrev nBuf : Space → Nat
  | .hbm => 77
  | .vmem => 0
  | .smem => 0
  | _ => 0

abbrev bufTy : (tb : Table) → Fin (tcTables nBuf tb) → BufTy
  | .hbm, ⟨0, _⟩ => ⟨S4x64x64x64, .f32⟩
  | .hbm, ⟨1, _⟩ => ⟨S4x64x64x64, .f32⟩
  | .hbm, ⟨2, _⟩ => ⟨S4x64x4096, .f32⟩
  | .hbm, ⟨3, _⟩ => ⟨S4x64x4096, .f32⟩
  | .hbm, ⟨4, _⟩ => ⟨S4x64x4096, .f32⟩
  | .hbm, ⟨5, _⟩ => ⟨S_, .f32⟩
  | .hbm, ⟨6, _⟩ => ⟨S4x4096, .f32⟩
  | .hbm, ⟨7, _⟩ => ⟨S4x1x4096, .f32⟩
  | .hbm, ⟨8, _⟩ => ⟨S4x1x4096, .f32⟩
  | .hbm, ⟨9, _⟩ => ⟨S_, .f32⟩
  | .hbm, ⟨10, _⟩ => ⟨S4x1x4096, .f32⟩
  | .hbm, ⟨11, _⟩ => ⟨S4x1x4096, .f32⟩
  | .hbm, ⟨12, _⟩ => ⟨S4x64x4096, .f32⟩
  | .hbm, ⟨13, _⟩ => ⟨S4x64x4096, .f32⟩
  | .hbm, ⟨14, _⟩ => ⟨S4x64x4096, .f32⟩
  | .hbm, ⟨15, _⟩ => ⟨S_, .f32⟩
  | .hbm, ⟨16, _⟩ => ⟨S4x4096, .f32⟩
  | .hbm, ⟨17, _⟩ => ⟨S4x1x4096, .f32⟩
  | .hbm, ⟨18, _⟩ => ⟨S4x1x4096, .f32⟩
  | .hbm, ⟨19, _⟩ => ⟨S_, .f32⟩
  | .hbm, ⟨20, _⟩ => ⟨S4x1x4096, .f32⟩
  | .hbm, ⟨21, _⟩ => ⟨S4x1x4096, .f32⟩
  | .hbm, ⟨22, _⟩ => ⟨S4x64x4096, .f32⟩
  | .hbm, ⟨23, _⟩ => ⟨S4x64x4096, .f32⟩
  | .hbm, ⟨24, _⟩ => ⟨S4x4096x64, .f32⟩
  | .hbm, ⟨25, _⟩ => ⟨S4x4096x64, .f32⟩
  | .hbm, ⟨26, _⟩ => ⟨S4x4096x64, .f32⟩
  | .hbm, ⟨27, _⟩ => ⟨S_, .f32⟩
  | .hbm, ⟨28, _⟩ => ⟨S4x4096, .f32⟩
  | .hbm, ⟨29, _⟩ => ⟨S4x4096x1, .f32⟩
  | .hbm, ⟨30, _⟩ => ⟨S4x4096x64, .f32⟩
  | .hbm, ⟨31, _⟩ => ⟨S_, .f32⟩
  | .hbm, ⟨32, _⟩ => ⟨S4x4096, .f32⟩
  | .hbm, ⟨33, _⟩ => ⟨S4x1x4096, .f32⟩
  | .hbm, ⟨34, _⟩ => ⟨S4x4096x4096, .f32⟩
  | .hbm, ⟨35, _⟩ => ⟨S4x4096x4096, .f32⟩
  | .hbm, ⟨36, _⟩ => ⟨S4x4096x4096, .f32⟩
  | .hbm, ⟨37, _⟩ => ⟨S4x4096x4096, .f32⟩
  | .hbm, ⟨38, _⟩ => ⟨S_, .f32⟩
  | .hbm, ⟨39, _⟩ => ⟨S4x4096x4096, .f32⟩
  | .hbm, ⟨40, _⟩ => ⟨S4x4096x4096, .f32⟩
  | .hbm, ⟨41, _⟩ => ⟨S4x4096x4096, .f32⟩
  | .hbm, ⟨42, _⟩ => ⟨S_, .f32⟩
  | .hbm, ⟨43, _⟩ => ⟨S4x4096x4096, .f32⟩
  | .hbm, ⟨44, _⟩ => ⟨S4x4096x4096, .f32⟩
  | .hbm, ⟨45, _⟩ => ⟨S4x4096x4096, .f32⟩
  | .hbm, ⟨46, _⟩ => ⟨S_, .f32⟩
  | .hbm, ⟨47, _⟩ => ⟨S4x4096, .f32⟩
  | .hbm, ⟨48, _⟩ => ⟨S4x4096x1, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S4x4096x4096, .f32⟩
  | .hbm, ⟨53, _⟩ => ⟨S4x4096x4096, .f32⟩
  | .hbm, ⟨54, _⟩ => ⟨S_, .f32⟩
  | .hbm, ⟨55, _⟩ => ⟨S4x4096x4096, .f32⟩
  | .hbm, ⟨56, _⟩ => ⟨S4x4096x4096, .f32⟩
  | .hbm, ⟨57, _⟩ => ⟨S_, .f32⟩
  | .hbm, ⟨58, _⟩ => ⟨S4x4096x4096, .f32⟩
  | .hbm, ⟨59, _⟩ => ⟨S4x4096x4096, .f32⟩
  | .hbm, ⟨60, _⟩ => ⟨S4x4096x4096, .f32⟩
  | .hbm, ⟨61, _⟩ => ⟨S_, .f32⟩
  | .hbm, ⟨62, _⟩ => ⟨S4x4096, .f32⟩
  | .hbm, ⟨63, _⟩ => ⟨S4x4096x1, .f32⟩
  | .hbm, ⟨64, _⟩ => ⟨S4x4096x4096, .f32⟩
  | .hbm, ⟨65, _⟩ => ⟨S4x4096x4096, .f32⟩
  | .hbm, ⟨66, _⟩ => ⟨S_, .f32⟩
  | .hbm, ⟨67, _⟩ => ⟨S4x4096, .f32⟩
  | .hbm, ⟨68, _⟩ => ⟨S_, .f32⟩
  | .hbm, ⟨69, _⟩ => ⟨S4x4096, .f32⟩
  | .hbm, ⟨70, _⟩ => ⟨S4x4096, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | _, _ => ⟨S4x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_cst_11 : Ref sig .tc := ⟨.hbm, 68, rfl⟩
abbrev main_v46 : Ref sig .tc := ⟨.hbm, 69, rfl⟩
abbrev main_v47 : Ref sig .tc := ⟨.hbm, 70, rfl⟩
abbrev main_cst_12 : Ref sig .tc := ⟨.hbm, 71, rfl⟩
abbrev main_v48 : Ref sig .tc := ⟨.hbm, 72, rfl⟩
abbrev main_cst_13 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩

abbrev nD : Nat := 1
abbrev τ : Topo := Topo.v7x

variable {F : FTy → Type} [FloatOps F]

class Facts₀ : Prop where
  shapeCasts_S4x64x64x64_S4x64x4096 : S4x64x64x64.ShapeCasts S4x64x4096
  reducesTo_S4x64x4096_S4x4096_d1 : S4x64x4096.ReducesTo [1] S4x4096
  h_S_ : 0 < S_.numel
  bcast_S4x4096_S4x1x4096_0_2 : S4x4096.BroadcastsInDim S4x1x4096 (![0, 2] : Fin 2 → Fin S4x1x4096.rank)
  bcast_S_S4x1x4096 : S_.BroadcastsInDim S4x1x4096 (![] : Fin 0 → Fin S4x1x4096.rank)
  bcast_S4x1x4096_S4x64x4096_0_1_2 : S4x1x4096.BroadcastsInDim S4x64x4096 (![0, 1, 2] : Fin 3 → Fin S4x64x4096.rank)
  transposes_S4x64x4096_S4x4096x64_0_2_1 : S4x64x4096.Transposes [0, 2, 1] S4x4096x64
  reducesTo_S4x4096x64_S4x4096_d2 : S4x4096x64.ReducesTo [2] S4x4096
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  bcast_S_S4x4096x1 : S_.BroadcastsInDim S4x4096x1 (![] : Fin 0 → Fin S4x4096x1.rank)
  bcast_S_S4x4096 : S_.BroadcastsInDim S4x4096 (![] : Fin 0 → Fin S4x4096.rank)
  reducesTo_S4x4096_S_d0_1 : S4x4096.ReducesTo [0, 1] S_
  dot_S4x4096x64_S4x4096x64_S4x4096x4096_2_2_1_1_0_0_wf : DotDims.WF S4x4096x64 S4x4096x64 S4x4096x4096 [2] [2] [1] [1] [0] [0]

variable [Facts₀]

def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf

class Facts : Prop extends Facts₀ where

variable [Facts]
-- ==== Proof.KernelPieces.lean ====
/-
  What one grid step leaves behind, as values.

  At the first step of a batch the body stores the squared norms of the key columns into the scratch row, reads them back
  and stores its row of results; at a later step it reads the scratch row as the step before left it. In either case the
  output block is one whole store, so what the staging buffer holds afterwards is that store's value, a function of the
  query block, the key block and the scratch row.
-/
import proofs.«121038_j72670846648945_2_alg».proof.Proof.Gen.KernelIdeal.Frame
import Idealize.ShloMosaic.Lib.Pipeline.Value
import Idealize.ShloMosaic.Lib.Tactic

noncomputable section

namespace Cert.Contextual.KernelPieces

open Idealize.ShloMosaic Idealize.ShloMosaic.TcCoe Idealize.SL.Sem Cert.KernelIdeal Cert.KernelIdeal.Gen

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The row a step stores, from the key block, the scratch row and the query block. -/
abbrev stored (y : Vec F S1x64x4096 .f32) (s : Vec F S1x4096 .f32) (x : Vec F S1x64x256 .f32) : Vec F S256 .f32 :=
  k0_pay1 (k0_pay4 y s x) (Scalar.ofBits .f32 0x3F800000#32)

/-- A later step of a batch: the output block holds the stored row computed from the scratch row as found. -/
theorem out_B (c : Dev nD) (i : grid0.Coords) (arg2 : Memref sig .tc .vmem S1x64x256 .f32) (harg2 : arg2.IsWhole) (arg3 : Memref sig .tc .vmem S1x64x4096 .f32) (harg3 : arg3.IsWhole) (arg4 : Memref sig .tc .vmem S256 .f32) (harg4 : arg4.IsWhole) (arg5 : Memref sig .tc .vmem S1x4096 .f32) (harg5 : arg5.IsWhole) (hc0 : ¬cond0_0 i)
    (x0 : Vec F S1x64x256 .f32) (x1 : Vec F S1x64x4096 .f32) (xs0 : Vec F S1x4096 .f32) :
    out0_B_2 c i arg2 harg2 arg3 harg3 arg4 harg4 arg5 harg5 hc0 x0 x1 xs0 = stored x1 xs0 x0 := by
  unfold out0_B_2
  rw [View.read_writes_eq_canon _ _ _ (cover0_B_2 c i arg2 harg2 arg3 harg3 arg4 harg4 arg5 harg5 hc0 x0 x1 xs0)]
  unfold kernelRun0_B
  dsimp only
  sl_unfold_words
  rw [View.canon_unit_zero hz1]
  simp only [View.readAt_eq_ld, harg2.read_unread, harg3.read_unread, harg5.read_unread,
    View.ld_unit_zero (S := S1x64x256) hz3, View.ld_unit_zero (S := S1x64x4096) hz3, View.ld_unit_zero (S := S1x4096) hz2]

/-- The first step of a batch: the scratch row ends at the squared norms of the key columns. -/
theorem sout_A (c : Dev nD) (i : grid0.Coords) (arg2 : Memref sig .tc .vmem S1x64x256 .f32) (harg2 : arg2.IsWhole) (arg3 : Memref sig .tc .vmem S1x64x4096 .f32) (harg3 : arg3.IsWhole) (arg4 : Memref sig .tc .vmem S256 .f32) (harg4 : arg4.IsWhole) (arg5 : Memref sig .tc .vmem S1x4096 .f32) (harg5 : arg5.IsWhole) (hc0 : cond0_0 i)
    (x0 : Vec F S1x64x256 .f32) (x1 : Vec F S1x64x4096 .f32) :
    sout0_A_0 c i arg2 harg2 arg3 harg3 arg4 harg4 arg5 harg5 hc0 x0 x1 = k0_pay3 x1 := by
  unfold sout0_A_0
  rw [View.read_writes_eq_canon _ _ _ (scover0_A_0 c i arg2 harg2 arg3 harg3 arg4 harg4 arg5 harg5 hc0 x0 x1)]
  unfold kernelRun0_A
  dsimp only
  sl_unfold_words
  rw [View.canon_unit_zero hz2]
  simp only [View.readAt_eq_ld, harg3.read_unread, View.ld_unit_zero (S := S1x64x4096) hz3]

/-- The first step of a batch: the output block holds the stored row computed from the scratch row just written. -/
theorem out_A (c : Dev nD) (i : grid0.Coords) (arg2 : Memref sig .tc .vmem S1x64x256 .f32) (harg2 : arg2.IsWhole) (arg3 : Memref sig .tc .vmem S1x64x4096 .f32) (harg3 : arg3.IsWhole) (arg4 : Memref sig .tc .vmem S256 .f32) (harg4 : arg4.IsWhole) (arg5 : Memref sig .tc .vmem S1x4096 .f32) (harg5 : arg5.IsWhole) (hc0 : cond0_0 i)
    (x0 : Vec F S1x64x256 .f32) (x1 : Vec F S1x64x4096 .f32) :
    out0_A_2 c i arg2 harg2 arg3 harg3 arg4 harg4 arg5 harg5 hc0 x0 x1 = stored x1 (k0_pay3 x1) x0 := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_unit_zero hz1, View.readCov_unit_zero (S := S1x4096) _ hz2]
  simp only [View.readAt_eq_ld, harg2.read_unread, harg3.read_unread,
    View.ld_unit_zero (S := S1x64x256) hz3, View.ld_unit_zero (S := S1x64x4096) hz3]

end Cert.Contextual.KernelPieces

end
-- ==== Proof.Spec.lean ====
/-
  What both programs compute for one query position, as functions of the two normalised feature arrays.

  A query column x and a key column y (64 channels each) are at distance
      dist x y = √ max((Σ_c x_c² + Σ_c y_c²) − 2 · Σ_c x_c · y_c, 0).
  For a row D of the 4096 distances from one query to all keys of its batch, with least entry μ (a fold of min from +∞),
  the kernel stores        peakK D = 1 / Σ_j exp((μ − D_j) · (1 / ((μ + 1e-5) · 0.1))),
  and the reference takes   peakR D = max_j  w_j / (0 + Σ_k w_k),   w_j = exp((1 − D_j / (μ + 1e-5)) / 0.1),
  the maximum a fold of max from −∞. The float words are kept as the words both programs print.
-/
import Idealize.ShloMosaic.PureOps.Ideal
import Idealize.ShloMosaic.Lib.ValueIdx

noncomputable section

namespace Cert.Contextual

open Idealize.ShloMosaic Idealize.ShloMosaic.ValueIdx

/-- The distance between a query column and a key column. -/
def dist (x y : Fin 64 → EReal) : EReal :=
  Ideal.sqrt (max ((∑ c, x c * x c + ∑ c, y c * y c) - Ideal.ofBits .f32 0x40000000#32 * ∑ c, x c * y c)
    (Ideal.ofBits .f32 0x00000000#32))

/-- The least distance of a row. -/
def rowMin (D : Fin 4096 → EReal) : EReal := Finset.univ.fold min (Ideal.ofBits .f32 0x7F800000#32) D

/-- The kernel's value for a row of distances. -/
def peakK (D : Fin 4096 → EReal) : EReal :=
  Ideal.div (Ideal.ofBits .f32 0x3F800000#32)
    (∑ j, Ideal.exp ((rowMin D - D j) * Ideal.div (Ideal.ofBits .f32 0x3F800000#32)
      ((rowMin D + Ideal.ofBits .f32 0x3727C5AC#32) * Ideal.ofBits .f32 0x3DCCCCCD#32)))

/-- The reference's value for a row of distances. -/
def peakR (D : Fin 4096 → EReal) : EReal :=
  Finset.univ.fold max (Ideal.ofBits .f32 0xFF800000#32) (fun j =>
    Ideal.div (Ideal.exp (Ideal.div (Ideal.ofBits .f32 0x3F800000#32
        - Ideal.div (D j) (rowMin D + Ideal.ofBits .f32 0x3727C5AC#32)) (Ideal.ofBits .f32 0x3DCCCCCD#32)))
      (Ideal.ofBits .f32 0x00000000#32 + ∑ k, Ideal.exp (Ideal.div (Ideal.ofBits .f32 0x3F800000#32
        - Ideal.div (D k) (rowMin D + Ideal.ofBits .f32 0x3727C5AC#32)) (Ideal.ofBits .f32 0x3DCCCCCD#32))))

/-- A normalised feature array: batch, channel, position. -/
abbrev NArr : Type := (⟨3, ![4, 64, 4096]⟩ : Shape).Idx → EReal

/-- The 64 channels of position n of batch b. -/
def col (A : NArr) (b : Fin 4) (n : Fin 4096) : Fin 64 → EReal := fun c => A (ix3 b c n)

/-- The kernel's value at query position n of batch b. -/
def cxK (A B : NArr) (b : Fin 4) (n : Fin 4096) : EReal := peakK (fun j => dist (col A b n) (col B b j))

/-- The reference's value at query position n of batch b. -/
def cxR (A B : NArr) (b : Fin 4) (n : Fin 4096) : EReal := peakR (fun j => dist (col A b n) (col B b j))

end Cert.Contextual

end
-- ==== Proof.LibKeepdims.lean ====
/-
  Sums along one axis and the small layout changes around them, read at an entry over the extended reals:
  an [a, b] array summed along either axis, an [n, a, b] array summed along its first axis, a vector [a] viewed as a
  column [a, 1], a [1, 1] array spread over [a, b], an [n, a, b] array viewed with two leading unit axes, and a sum over
  the indices of a vector as a sum over its coordinate.
-/
import Idealize.ShloMosaic.Lib.ValueIdx
import Idealize.ShloMosaic.Lib.ValueLayout
import Idealize.ShloMosaic.Lib.Pipeline.Value
import Idealize.ShloMosaic.PureOps.Ideal.Laws

namespace Cert.LibKeepdims

open Idealize.ShloMosaic Idealize.ShloMosaic.ValueIdx

variable {φ : FTy} {α : Type}

/-- An [a, b] array summed along its second axis: entry i is the sum over j of the entries (i, j). -/
theorem sum_axis1_apply {a b : Nat} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ v acc h hφ hacc (ix1 i) = ∑ j : Fin b, v (ix2 i j) :=
  (Ideal.multiReduction_add_single v acc h hφ hacc (ix1 i)).trans
    (Finset.sum_congr rfl fun j _ => congrArg v (funext fun d => Fin.ext (by
      match d with
      | ⟨0, _⟩ => rfl
      | ⟨1, _⟩ => rfl)))

/-- An [a, b] array summed along its first axis: entry j is the sum over i of the entries (i, j). -/
theorem sum_axis0_apply {a b : Nat} (v : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ v acc h hφ hacc (ix1 j) = ∑ i : Fin a, v (ix2 i j) :=
  (Ideal.multiReduction_add_single v acc h hφ hacc (ix1 j)).trans
    (Finset.sum_congr rfl fun i _ => congrArg v (funext fun d => Fin.ext (by
      match d with
      | ⟨0, _⟩ => rfl
      | ⟨1, _⟩ => rfl)))

/-- An [n, a, b] array summed along its first axis: entry (x, y) is the sum over z of the entries (z, x, y). -/
theorem sum3_axis0_apply {n a b : Nat} (v : FVec Ideal ⟨3, ![n, a, b]⟩ φ) (acc : BitVec φ.bits)
    (h : (⟨3, ![n, a, b]⟩ : Shape).Reduces [0] ⟨2, ![a, b]⟩) (hφ : FKind.Formats φ) (hacc : acc = FKind.add.neutral φ hφ)
    (x : Fin a) (y : Fin b) :
    multiReduction .add [0] ⟨2, ![a, b]⟩ v acc h hφ hacc (ix2 x y) = ∑ z : Fin n, v (ix3 z x y) :=
  (Ideal.multiReduction_add_single v acc h hφ hacc (ix2 x y)).trans
    (Finset.sum_congr rfl fun z _ => congrArg v (funext fun d => Fin.ext (by
      match d with
      | ⟨0, _⟩ => rfl
      | ⟨1, _⟩ => rfl
      | ⟨2, _⟩ => rfl)))

/-- A vector [a] viewed as a column [a, 1]: entry (i, 0) is entry i. -/
theorem column_apply {a : Nat} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A [1, 1] array spread over [a, b]: every entry is its one entry. -/
theorem spread_apply {a b : Nat} (x : (⟨2, ![1, 1]⟩ : Shape).Idx → α) (h : (⟨2, ![1, 1]⟩ : Shape).Broadcasts ⟨2, ![a, b]⟩)
    (r : Fin a) (l : Fin b) : broadcastTo ⟨2, ![a, b]⟩ x h (ix2 r l) = x (ix2 (0 : Fin 1) (0 : Fin 1)) := by
  refine broadcastTo_apply x h (ix2 r l) (ix2 (0 : Fin 1) (0 : Fin 1)) fun ax => ?_
  match ax with
  | ⟨0, _⟩ => show (0 : Nat) = if (1 : Nat) = 1 then 0 else _; rw [if_pos rfl]
  | ⟨1, _⟩ => show (0 : Nat) = if (1 : Nat) = 1 then 0 else _; rw [if_pos rfl]

/-- A [1, 1, n, a, b] array viewed as [n, a, b]: entry (z, x, y) is entry (0, 0, z, x, y). -/
theorem drop2_apply {n a b : Nat} (x : (⟨5, ![1, 1, n, a, b]⟩ : Shape).Idx → α)
    (h : (⟨5, ![1, 1, n, a, b]⟩ : Shape).ShapeCasts ⟨3, ![n, a, b]⟩) (z : Fin n) (p : Fin a) (q : Fin b) :
    shapeCast ⟨3, ![n, a, b]⟩ x h (ix3 z p q) = x (ix5 (0 : Fin 1) (0 : Fin 1) z p q) :=
  shapeCast_apply x h _ _ (by
    rw [Shape.rowMajor_val_five, Shape.rowMajor_val_three]
    show ((((0 * 1 + 0) * n + z.val) * a + p.val) * b + q.val) = (z.val * a + p.val) * b + q.val
    simp only [Nat.zero_mul, Nat.zero_add])

/-- A sum over the indices of a vector [n] is the sum over its one coordinate. -/
theorem sum_idx1 {M : Type*} [AddCommMonoid M] {n : Nat} (f : (⟨1, ![n]⟩ : Shape).Idx → M) :
    ∑ i, f i = ∑ a : Fin n, f (ix1 a) :=
  (Equiv.sum_comp ((⟨fun i => i 0, ix1, fun i => (eq_ix1 i).symm, fun _ => rfl⟩ :
    (⟨1, ![n]⟩ : Shape).Idx ≃ Fin n).symm) f).symm

end Cert.LibKeepdims
-- ==== Proof.LibColumnBroadcast.lean ====
/-
  A column read back from its broadcast.
-/
import Idealize.ShloMosaic.Lib.Pipeline.Value
import Idealize.ShloMosaic.Lib.ValueIdx

namespace Cert.LibColumnBroadcast

open Idealize.ShloMosaic Idealize.ShloMosaic.ValueIdx

/-- An `[a, 1]` column broadcast to `[a, b]` reads, at `(p, c)`, the column's entry of row `p`:
    the unit axis contributes coordinate zero, the long axis its own coordinate. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibColumnBroadcast
-- ==== Proof.LibRowFold.lean ====
/-
  Minima and maxima along the last axis, read at an entry over the extended reals.

  A reduction by min (or max) is a fold of a commutative, associative operation, so its value at an entry does not depend
  on the order of the fold: it is the fold, from the initial value, over the coordinates of the reduced axis.
-/
import Idealize.ShloMosaic.Lib.ValueIdx
import Idealize.ShloMosaic.Lib.Pipeline.Value
import Idealize.ShloMosaic.PureOps.Ideal.Laws

namespace Cert.LibRowFold

open Idealize.ShloMosaic Idealize.ShloMosaic.ValueIdx

variable {φ : FTy} {α : Type}

/-- A kernel's reduction by min over one axis: the fold of min from the accumulator's value over that axis. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- An [a, b] array reduced by min along its second axis: entry i is the least of the entries (i, j), from the
    accumulator's value. -/
theorem min_axis1_apply {a b : Nat} (v : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (i : Fin a) :
    multiReduction .minimumf [1] ⟨1, ![a]⟩ v acc h hφ hacc (ix1 i)
      = (Finset.univ : Finset (Fin b)).fold min (Ideal.ofBits φ acc) (fun j => v (ix2 i j)) :=
  (multiReduction_minimumf_single v acc h hφ hacc (ix1 i)).trans
    (congrArg (Finset.fold min (Ideal.ofBits φ acc) · (Finset.univ : Finset (Fin b))) (funext fun j => congrArg v (funext fun d => Fin.ext (by
      match d with
      | ⟨0, _⟩ => rfl
      | ⟨1, _⟩ => rfl))))

/-- A host reduction of an [n, a, b] array along its last axis by a commutative, associative operation: entry (p, q) is
    the fold of the operation from the initial value over the entries (p, q, j). -/
theorem hostReduce_axis2_apply (f : α → α → α) [Std.Commutative f] [Std.Associative f] {n a b : Nat}
    (x : (⟨3, ![n, a, b]⟩ : Shape).Idx → α) {u : Shape} (init : u.Idx → α)
    (h' : (⟨3, ![n, a, b]⟩ : Shape).ReducesTo [2] ⟨2, ![n, a]⟩) (h : (⟨3, ![n, a, b]⟩ : Shape).Reduces [2] ⟨2, ![n, a]⟩)
    (hu : 0 < u.numel) (p : Fin n) (q : Fin a) :
    Host.reduce f x init h' hu (ix2 p q)
      = (Finset.univ : Finset (Fin b)).fold f (init (Shape.Idx.first hu)) (fun j => x (ix3 p q j)) :=
  (Host.reduce_eq_fold_single f x init h' h hu (ix2 p q)).trans
    (congrArg (Finset.fold f (init (Shape.Idx.first hu)) · (Finset.univ : Finset (Fin b))) (funext fun j => congrArg x (funext fun d => Fin.ext (by
      match d with
      | ⟨0, _⟩ => rfl
      | ⟨1, _⟩ => rfl
      | ⟨2, _⟩ => rfl))))

/-- A host reduction by min of an [n, a, b] array of extended reals along its last axis. -/
theorem hostReduce_min_axis2_apply {n a b : Nat} (x : FVec Ideal ⟨3, ![n, a, b]⟩ φ) {u : Shape} (init : FVec Ideal u φ)
    (h' : (⟨3, ![n, a, b]⟩ : Shape).ReducesTo [2] ⟨2, ![n, a]⟩) (h : (⟨3, ![n, a, b]⟩ : Shape).Reduces [2] ⟨2, ![n, a]⟩)
    (hu : 0 < u.numel) (p : Fin n) (q : Fin a) :
    Host.reduce (FloatOps.minimumf (F := Ideal) (φ := φ)) x init h' hu (ix2 p q)
      = (Finset.univ : Finset (Fin b)).fold min (init (Shape.Idx.first hu)) (fun j => x (ix3 p q j)) :=
  hostReduce_axis2_apply (FloatOps.minimumf (F := Ideal) (φ := φ)) x init h' h hu p q

/-- A host reduction by max of an [n, a, b] array of extended reals along its last axis. -/
theorem hostReduce_max_axis2_apply {n a b : Nat} (x : FVec Ideal ⟨3, ![n, a, b]⟩ φ) {u : Shape} (init : FVec Ideal u φ)
    (h' : (⟨3, ![n, a, b]⟩ : Shape).ReducesTo [2] ⟨2, ![n, a]⟩) (h : (⟨3, ![n, a, b]⟩ : Shape).Reduces [2] ⟨2, ![n, a]⟩)
    (hu : 0 < u.numel) (p : Fin n) (q : Fin a) :
    Host.reduce (FloatOps.maximumf (F := Ideal) (φ := φ)) x init h' hu (ix2 p q)
      = (Finset.univ : Finset (Fin b)).fold max (init (Shape.Idx.first hu)) (fun j => x (ix3 p q j)) :=
  hostReduce_axis2_apply (FloatOps.maximumf (F := Ideal) (φ := φ)) x init h' h hu p q

/-- A column [a, 1] viewed as a vector [a]: entry i is entry (i, 0). -/
theorem vector_of_column_apply {a : Nat} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibRowFold
-- ==== Proof.KernelRow.lean ====
/-
  What one grid step of the kernel stores, read at a query row.

  The step sees a query block X (64 channels × 256 positions), the batch's key block Y (64 channels × 4096 positions) and
  the scratch row s. Its arithmetic, named value by value: the query block without its unit axis; the squared norms of the
  query columns, as a column; the products of query and key columns; the distance matrix; each row's least distance; each
  row's sum of shifted exponentials; and the stored reciprocal. Read at row r, with s the squared norms of the key columns,
  the stored value is the kernel's peak of the distances from query column r to all key columns.
-/
import proofs.«121038_j72670846648945_2_alg».proof.Proof.Gen.KernelIdeal.Skeleton
import proofs.«121038_j72670846648945_2_alg».proof.Proof.Spec
import proofs.«121038_j72670846648945_2_alg».proof.Proof.LibKeepdims
import proofs.«121038_j72670846648945_2_alg».proof.Proof.LibColumnBroadcast
import proofs.«121038_j72670846648945_2_alg».proof.Proof.LibRowFold
import Idealize.ShloMosaic.Lib.ValueLayout
import Idealize.ShloMosaic.Lib.ValueIdx
import Idealize.ShloMosaic.Lib.Pipeline.Value
import Idealize.ShloMosaic.PureOps.Ideal.Laws

noncomputable section

namespace Cert.Contextual.KernelRow

open Idealize.ShloMosaic Idealize.ShloMosaic.ValueIdx Cert.KernelIdeal Cert.KernelIdeal.Facts₀
open Cert.LibKeepdims Cert.LibColumnBroadcast Cert.LibRowFold

variable (X : Vec Ideal S1x64x256 .f32) (Y : Vec Ideal S1x64x4096 .f32) (s : Vec Ideal S1x4096 .f32)

/-- The query block as a [64, 256] matrix. -/
def xq : FVec Ideal S64x256 .f32 := shapeCast S64x256 X shapeCasts_S1x64x256_S64x256

/-- The squared norms of the query columns, as a [256, 1] column. -/
def x2col : FVec Ideal S256x1 .f32 :=
  transpose S256x1 [1, 0]
    (shapeCast S1x256 (multiReduction .add [0] S256 (mulf (xq X) (xq X)) 0x00000000#32 reduces_S64x256_S256 (.inl rfl) rfl)
      shapeCasts_S256_S1x256) transposes_S1x256_p1_0_S256x1

/-- The products of query columns and key columns. -/
def dots : FVec Ideal S256x4096 .f32 :=
  matmul dot_S64x256_S64x4096_S256x4096_0_0_1_1_n_n (some .fp32) (xq X) (Gen.k0_pay2 Y) (constant (F := Ideal) S256x4096 .f32 0x00000000#32)

/-- The distance matrix: query positions by key positions. -/
def dmat : FVec Ideal S256x4096 .f32 :=
  sqrt (maximumf
    (subf (addf (broadcastTo S256x4096 (x2col X) broadcasts_S256x1_S256x4096) (broadcastTo S256x4096 s broadcasts_S1x4096_S256x4096))
      (mulf (broadcast S256x4096 (Scalar.ofBits (F := Ideal) .f32 0x40000000#32)) (dots X Y)))
    (broadcast S256x4096 (Scalar.ofBits (F := Ideal) .f32 0x00000000#32)))

/-- Each row's least distance, as a column. -/
def dmin : FVec Ideal S256x1 .f32 :=
  shapeCast S256x1 (multiReduction .minimumf [1] S256 (dmat X Y s) 0x7F800000#32 reduces_S256x4096_S256 (.inl rfl) rfl)
    shapeCasts_S256_S256x1

/-- Each row's sum of shifted exponentials, as a column. -/
def wsum : FVec Ideal S256x1 .f32 :=
  shapeCast S256x1 (multiReduction .add [1] S256
    (exp (mulf (subf (broadcastTo S256x4096 (dmin X Y s) broadcasts_S256x1_S256x4096) (dmat X Y s))
      (broadcastTo S256x4096
        (divf (broadcast S256x1 (Scalar.ofBits (F := Ideal) .f32 0x3F800000#32))
          (mulf (addf (dmin X Y s) (broadcast S256x1 (Scalar.ofBits (F := Ideal) .f32 0x3727C5AC#32)))
            (broadcast S256x1 (Scalar.ofBits (F := Ideal) .f32 0x3DCCCCCD#32))))
        broadcasts_S256x1_S256x4096)))
    0x00000000#32 reduces_S256x4096_S256 (.inl rfl) rfl) shapeCasts_S256_S256x1

/-- The step's sum payload is the row sums above. -/
theorem pay4_eq : Gen.k0_pay4 Y s X = wsum X Y s := rfl

theorem xq_apply (c : Fin 64) (r : Fin 256) : xq X (ix2 c r) = X (ix3 (0 : Fin 1) c r) :=
  shapeCast_1ab_ab_apply X shapeCasts_S1x64x256_S64x256 c r

theorem yk_apply (c : Fin 64) (j : Fin 4096) : Gen.k0_pay2 Y (ix2 c j) = Y (ix3 (0 : Fin 1) c j) :=
  shapeCast_1ab_ab_apply Y shapeCasts_S1x64x4096_S64x4096 c j

/-- The squared norm of query column r. -/
theorem x2col_apply (r : Fin 256) (u : Fin 1) :
    x2col X (ix2 r u) = ∑ c : Fin 64, X (ix3 (0 : Fin 1) c r) * X (ix3 (0 : Fin 1) c r) := by
  obtain rfl : u = 0 := Subsingleton.elim _ _
  unfold x2col
  refine (transpose_ix2_apply _ transposes_S1x256_p1_0_S256x1 r (0 : Fin 1)).trans ?_
  refine (shapeCast_a_1a_apply _ shapeCasts_S256_S1x256 (0 : Fin 1) r).trans ?_
  refine (sum_axis0_apply _ _ reduces_S64x256_S256 _ _ r).trans ?_
  exact Finset.sum_congr rfl fun c _ => by rw [mulf_apply, xq_apply]

/-- What the first step of a batch stores in the scratch row: the squared norms of the key columns. -/
theorem y2row_apply (u : Fin 1) (j : Fin 4096) :
    Gen.k0_pay3 Y (ix2 u j) = ∑ c : Fin 64, Y (ix3 (0 : Fin 1) c j) * Y (ix3 (0 : Fin 1) c j) := by
  unfold Gen.k0_pay3
  dsimp only
  refine (congrFun (shapeCast_self _ shapeCasts_S1x4096_S1x4096) _).trans ?_
  refine (shapeCast_a_1a_apply _ shapeCasts_S4096_S1x4096 u j).trans ?_
  refine (sum_axis0_apply _ _ reduces_S64x4096_S4096 _ _ j).trans ?_
  exact Finset.sum_congr rfl fun c _ => by rw [mulf_apply, yk_apply]

theorem lhs_0 (i : S256x4096.Idx) (q : dot_S64x256_S64x4096_S256x4096_0_0_1_1_n_n.contr.Idx) :
    (dot_S64x256_S64x4096_S256x4096_0_0_1_1_n_n.lhsIdx i q 0).val = (q ⟨0, by decide⟩).val :=
  dot_S64x256_S64x4096_S256x4096_0_0_1_1_n_n.lhsIdx_val_of_single rfl i q
theorem lhs_1 (i : S256x4096.Idx) (q : dot_S64x256_S64x4096_S256x4096_0_0_1_1_n_n.contr.Idx) :
    (dot_S64x256_S64x4096_S256x4096_0_0_1_1_n_n.lhsIdx i q 1).val = (i 0).val := by
  unfold DotDims.lhsIdx
  rw [dif_neg (show ¬(1 : Fin S64x256.rank) ∈ dot_S64x256_S64x4096_S256x4096_0_0_1_1_n_n.lhsBatch by decide), dif_pos (show (1 : Fin S64x256.rank) ∈ dot_S64x256_S64x4096_S256x4096_0_0_1_1_n_n.lhsNonContracting by decide)]
  rfl
theorem rhs_0 (i : S256x4096.Idx) (q : dot_S64x256_S64x4096_S256x4096_0_0_1_1_n_n.contr.Idx) :
    (dot_S64x256_S64x4096_S256x4096_0_0_1_1_n_n.rhsIdx i q 0).val = (q ⟨0, by decide⟩).val :=
  dot_S64x256_S64x4096_S256x4096_0_0_1_1_n_n.rhsIdx_val_of_single rfl i q
theorem rhs_1 (i : S256x4096.Idx) (q : dot_S64x256_S64x4096_S256x4096_0_0_1_1_n_n.contr.Idx) :
    (dot_S64x256_S64x4096_S256x4096_0_0_1_1_n_n.rhsIdx i q 1).val = (i 1).val := by
  unfold DotDims.rhsIdx
  rw [dif_neg (show ¬(1 : Fin S64x4096.rank) ∈ dot_S64x256_S64x4096_S256x4096_0_0_1_1_n_n.rhsBatch by decide), dif_pos (show (1 : Fin S64x4096.rank) ∈ dot_S64x256_S64x4096_S256x4096_0_0_1_1_n_n.rhsNonContracting by decide)]
  rfl

/-- The product of query column r and key column j. -/
theorem dots_apply (r : Fin 256) (j : Fin 4096) :
    dots X Y (ix2 r j) = ∑ c : Fin 64, X (ix3 (0 : Fin 1) c r) * Y (ix3 (0 : Fin 1) c j) := by
  unfold dots
  generalize hl : xq X = l
  generalize hr : Gen.k0_pay2 Y = rr
  simp only [matmul]
  rw [Ideal.matmul_constant_zero_apply, ← Equiv.sum_comp (contrEquiv1 dot_S64x256_S64x4096_S256x4096_0_0_1_1_n_n 64 rfl rfl).symm]
  refine Finset.sum_congr rfl fun k _ => ?_
  have hk := contrEquiv1_symm_val dot_S64x256_S64x4096_S256x4096_0_0_1_1_n_n 64 rfl rfl k
  have el : dot_S64x256_S64x4096_S256x4096_0_0_1_1_n_n.lhsIdx (ix2 r j) ((contrEquiv1 dot_S64x256_S64x4096_S256x4096_0_0_1_1_n_n 64 rfl rfl).symm k) = ix2 k r := funext fun a => Fin.ext (by
    match a with
    | ⟨0, _⟩ => exact (lhs_0 _ _).trans hk
    | ⟨1, _⟩ => exact lhs_1 _ _)
  have er : dot_S64x256_S64x4096_S256x4096_0_0_1_1_n_n.rhsIdx (ix2 r j) ((contrEquiv1 dot_S64x256_S64x4096_S256x4096_0_0_1_1_n_n 64 rfl rfl).symm k) = ix2 k j := funext fun a => Fin.ext (by
    match a with
    | ⟨0, _⟩ => exact (rhs_0 _ _).trans hk
    | ⟨1, _⟩ => exact rhs_1 _ _)
  rw [el, er, ← hl, ← hr, xq_apply, yk_apply]

/-- With the scratch row holding the squared norms of the key columns, entry (r, j) of the distance matrix is the
    distance between query column r and key column j. -/
theorem dmat_apply (hs : ∀ j : Fin 4096, s (ix2 (0 : Fin 1) j) = ∑ c : Fin 64, Y (ix3 (0 : Fin 1) c j) * Y (ix3 (0 : Fin 1) c j))
    (r : Fin 256) (j : Fin 4096) :
    dmat X Y s (ix2 r j) = dist (fun c => X (ix3 (0 : Fin 1) c r)) (fun c => Y (ix3 (0 : Fin 1) c j)) := by
  have e1 := broadcastTo_a1_ab_apply (x2col X) broadcasts_S256x1_S256x4096 r j
  have e2 := broadcastTo_1b_ab_apply s broadcasts_S1x4096_S256x4096 r j
  unfold dist
  rw [← x2col_apply X r 0, ← hs j, ← dots_apply X Y r j, ← e1, ← e2]
  rfl

/-- Entry (r, 0) of the column of least distances is the least entry of row r of the distance matrix. -/
theorem dmin_apply (r : Fin 256) (u : Fin 1) :
    dmin X Y s (ix2 r u) = rowMin (fun j => dmat X Y s (ix2 r j)) := by
  unfold dmin rowMin
  refine (column_apply _ shapeCasts_S256_S256x1 r u).trans ?_
  exact min_axis1_apply _ _ reduces_S256x4096_S256 _ _ r

/-- Entry (r, 0) of the column of sums: the sum over the keys of the shifted exponentials of row r. -/
theorem wsum_apply (r : Fin 256) (u : Fin 1) :
    wsum X Y s (ix2 r u)
      = ∑ j : Fin 4096, Ideal.exp ((dmin X Y s (ix2 r (0 : Fin 1)) - dmat X Y s (ix2 r j))
          * Ideal.div (Ideal.ofBits .f32 0x3F800000#32)
              ((dmin X Y s (ix2 r (0 : Fin 1)) + Ideal.ofBits .f32 0x3727C5AC#32) * Ideal.ofBits .f32 0x3DCCCCCD#32)) := by
  unfold wsum
  refine (column_apply _ shapeCasts_S256_S256x1 r u).trans ?_
  refine (sum_axis1_apply _ _ reduces_S256x4096_S256 _ _ r).trans ?_
  refine Finset.sum_congr rfl fun j _ => ?_
  have e1 := broadcastTo_a1_ab_apply (dmin X Y s) broadcasts_S256x1_S256x4096 r j
  have e2 := broadcastTo_a1_ab_apply
    (divf (broadcast S256x1 (Scalar.ofBits (F := Ideal) .f32 0x3F800000#32))
      (mulf (addf (dmin X Y s) (broadcast S256x1 (Scalar.ofBits (F := Ideal) .f32 0x3727C5AC#32)))
        (broadcast S256x1 (Scalar.ofBits (F := Ideal) .f32 0x3DCCCCCD#32)))) broadcasts_S256x1_S256x4096 r j
  have hexp : ∀ (v : FVec Ideal S256x4096 .f32) (i : S256x4096.Idx), exp v i = Ideal.exp (v i) := fun _ _ => rfl
  rw [hexp, mulf_apply, subf_apply, e1, e2, divf_apply, mulf_apply, addf_apply, broadcast_apply, broadcast_apply, broadcast_apply]
  rfl

/-- THE STORED ROW: with the scratch row holding the squared norms of the key columns, entry r of what the step stores is
    the kernel's peak of the distances from query column r to the key columns. -/
theorem stored_apply (hs : ∀ j : Fin 4096, s (ix2 (0 : Fin 1) j) = ∑ c : Fin 64, Y (ix3 (0 : Fin 1) c j) * Y (ix3 (0 : Fin 1) c j))
    (r : Fin 256) :
    Gen.k0_pay1 (Gen.k0_pay4 Y s X) (Scalar.ofBits (F := Ideal) .f32 0x3F800000#32) (ix1 r)
      = peakK (fun j => dist (fun c => X (ix3 (0 : Fin 1) c r)) (fun c => Y (ix3 (0 : Fin 1) c j))) := by
  unfold Gen.k0_pay1
  try dsimp only
  refine (vector_of_column_apply _ shapeCasts_S256x1_S256 r).trans ?_
  show Ideal.div (Ideal.ofBits .f32 0x3F800000#32) (Gen.k0_pay4 Y s X (ix2 r (0 : Fin 1))) = _
  rw [pay4_eq, wsum_apply, dmin_apply]
  unfold peakK
  rw [show (fun j => dmat X Y s (ix2 r j)) = fun j => dist (fun c => X (ix3 (0 : Fin 1) c r)) (fun c => Y (ix3 (0 : Fin 1) c j)) from
    funext fun j => dmat_apply X Y s hs r j]
  refine congrArg _ (Finset.sum_congr rfl fun j _ => ?_)
  rw [dmat_apply X Y s hs r j]

end Cert.Contextual.KernelRow

end
-- ==== Proof.KernelArray.lean ====
/-
  The kernel's result array, as one function of the two normalised arrays.

  The grid runs over 4 batches × 16 tiles of 256 query positions, in that order. At step t the query window holds
  positions 256·(t mod 16) … of batch t div 16, the key window the whole batch, and the output block is block t of the
  flat result, that is positions 256·(t mod 16) … of batch t div 16 again. The scratch row is written at the first step of
  each batch and kept until the next batch starts, so at every step it holds the squared norms of the key columns of the
  step's own batch. Hence every step stores, at row r, the kernel's peak for its query position, and the 64 blocks tile
  the result.
-/
import proofs.«121038_j72670846648945_2_alg».proof.Proof.KernelPieces
import proofs.«121038_j72670846648945_2_alg».proof.Proof.KernelRow
import Idealize.ShloMosaic.Lib.Pipeline.Value

noncomputable section

namespace Cert.Contextual.KernelArray

open Idealize.ShloMosaic Idealize.ShloMosaic.TcCoe Idealize.SL.Sem Idealize.ShloMosaic.ValueIdx
open Cert.KernelIdeal Cert.KernelIdeal.Gen Cert.Contextual.KernelPieces
open Idealize.ShloMosaic.Pipeline (Dat)

variable (m : (ℓ : Loc nD τ sig) → Buf (Elt Ideal) ℓ) (ρ : Dev nD → PrngReg)

/-- The normalised first argument, as the region finds it. -/
abbrev Aq (c : Dev nD) : NArr := V m c main_v6
/-- The normalised second argument, as the region finds it. -/
abbrev Bk (c : Dev nD) : NArr := V m c main_v11

/-- The printed index maps, decided over the grid. -/
theorem idx_facts : ∀ t : Fin cfg0.N,
    win0_0.index t (0 : Fin 3) = t.val / 16 ∧ win0_0.index t (1 : Fin 3) = 0 ∧ win0_0.index t (2 : Fin 3) = t.val % 16
    ∧ win0_1.index t (0 : Fin 3) = t.val / 16 ∧ win0_1.index t (1 : Fin 3) = 0 ∧ win0_1.index t (2 : Fin 3) = 0
    ∧ win0_2.index t (0 : Fin 1) = t.val :=
  (by decide +kernel : ∀ t : Fin grid0.N, _)

/-- The query window at step t: channel cc of position r is channel cc of position 256·(t mod 16) + r of batch t div 16. -/
theorem qblk_apply (c : Dev nD) (t : Fin cfg0.N) (cc : Fin 64) (r : Fin 256) (b : Fin 4) (n : Fin 4096)
    (hb : b.val = t.val / 16) (hn : n.val = 256 * (t.val % 16) + r.val) :
    (iblk m c 0 t : Vec Ideal S1x64x256 .f32) (ix3 (0 : Fin 1) cc r) = Aq m c (ix3 b cc n) := by
  obtain ⟨e0, e1, e2, -, -, -, -⟩ := idx_facts t
  unfold iblk
  rw [View.read_apply]
  show V m c main_v6 _ = V m c main_v6 _
  refine congrArg (V m c main_v6) (funext fun a => Fin.ext ?_)
  match a with
  | ⟨0, _⟩ => show win0_0.index t (0 : Fin 3) * 1 + 1 * 0 = b.val; omega
  | ⟨1, _⟩ => show win0_0.index t (1 : Fin 3) * 64 + 1 * cc.val = cc.val; omega
  | ⟨2, _⟩ => show win0_0.index t (2 : Fin 3) * 256 + 1 * r.val = n.val; omega

/-- The key window at step t: channel cc of position j is channel cc of position j of batch t div 16. -/
theorem kblk_apply (c : Dev nD) (t : Fin cfg0.N) (cc : Fin 64) (j : Fin 4096) (b : Fin 4) (hb : b.val = t.val / 16) :
    (iblk m c 1 t : Vec Ideal S1x64x4096 .f32) (ix3 (0 : Fin 1) cc j) = Bk m c (ix3 b cc j) := by
  obtain ⟨-, -, -, e0, e1, e2, -⟩ := idx_facts t
  unfold iblk
  rw [View.read_apply]
  show V m c main_v11 _ = V m c main_v11 _
  refine congrArg (V m c main_v11) (funext fun a => Fin.ext ?_)
  match a with
  | ⟨0, _⟩ => show win0_1.index t (0 : Fin 3) * 1 + 1 * 0 = b.val; omega
  | ⟨1, _⟩ => show win0_1.index t (1 : Fin 3) * 64 + 1 * cc.val = cc.val; omega
  | ⟨2, _⟩ => show win0_1.index t (2 : Fin 3) * 4096 + 1 * j.val = j.val; omega

/-- THE SCRATCH ROW after step n holds the squared norms of the key columns of the step's batch: written at the first
    step of the batch, untouched since. -/
theorem scratch_apply (c : Dev nD) (n : ℕ) : ∀ (h : n < cfg0.N) (b : Fin 4) (hb : b.val = n / 16) (j : Fin 4096),
    (outsAt0 m c n h).2 (ix2 (0 : Fin 1) j) = ∑ cc : Fin 64, Bk m c (ix3 b cc j) * Bk m c (ix3 b cc j) := by
  induction n using Nat.strong_induction_on with
  | _ n ih =>
    intro h b hb j
    by_cases h0 : n % 16 = 0
    · rw [outsAt0_A m c ⟨n, h⟩ h0]
      dsimp only
      rw [sout_A]
      refine (KernelRow.y2row_apply (iblk m c 1 ⟨n, h⟩) (0 : Fin 1) j).trans ?_
      exact Finset.sum_congr rfl fun cc _ => by rw [kblk_apply m c ⟨n, h⟩ cc j b hb]
    · have hn : n ≠ 0 := fun e => h0 (by rw [e])
      rw [outsAt0_B m c ⟨n, h⟩ h0]
      dsimp only
      unfold sout0_B_0
      exact ih (n - 1) (by omega) _ b (by omega) j

/-- What step t leaves in its output block: the stored row of its key block, the scratch row and its query block. -/
theorem out_eq (c : Dev nD) (t : Fin cfg0.N) :
    (outsAt0 m c t.val t.isLt).1 = stored (iblk m c 1 t) ((outsAt0 m c t.val t.isLt).2) (iblk m c 0 t) := by
  by_cases h0 : t.val % 16 = 0
  · rw [outsAt0_A m c t h0]
    dsimp only
    rw [out_A, sout_A]
  · rw [outsAt0_B m c t h0]
    dsimp only
    rw [out_B]
    rfl

/-- The kernel's result array: entry i is the kernel's peak of query position i mod 4096 of batch i div 4096. -/
def G (A B : NArr) : S16384.Idx → EReal := fun i =>
  cxK A B ⟨(i 0).val / 4096, by have h : (i 0).val < 16384 := (i 0).isLt; omega⟩ ⟨(i 0).val % 4096, Nat.mod_lt _ (by decide)⟩

/-- Row r of what step t stores is entry 256·t + r of the result array. -/
theorem entry_eq (c : Dev nD) (t : Fin cfg0.N) (r : Fin 256) (i : S16384.Idx) (hi : (i 0).val = t.val * 256 + r.val) :
    stored (iblk m c 1 t) ((outsAt0 m c t.val t.isLt).2) (iblk m c 0 t) (ix1 r) = G (Aq m c) (Bk m c) i := by
  have hN : t.val < 64 := lt_of_lt_of_eq t.isLt (show cfg0.N = 64 from N_0)
  have hr : r.val < 256 := r.isLt
  refine (KernelRow.stored_apply (iblk m c 0 t) (iblk m c 1 t) ((outsAt0 m c t.val t.isLt).2) (fun j => ?_) r).trans ?_
  · refine (scratch_apply m c t.val t.isLt ⟨t.val / 16, by omega⟩ rfl j).trans ?_
    exact Finset.sum_congr rfl fun cc _ => by rw [kblk_apply m c t cc j ⟨t.val / 16, by omega⟩ rfl]
  · unfold G cxK
    refine congrArg peakK (funext fun j => ?_)
    exact congrArg₂ dist
      (funext fun cc => qblk_apply m c t cc r _ _ (by dsimp only; omega) (by dsimp only; omega))
      (funext fun cc => kblk_apply m c t cc j _ (by dsimp only; omega))

/-- WHAT STEP t WRITES BACK is block t of the result array. -/
theorem flushed_eq (c : Dev nD) (t : Fin cfg0.N) :
    (dats m 0 c).flushed 2 t = ((cfg0.win 2).blk t).view.read (Elt Ideal) (G (Aq m c) (Bk m c)) := by
  show (cfg0.win 2).cut (grid0.coords t) ((dats m 0 c).after 2 t) = _
  rw [after0_2, out_eq]
  obtain ⟨-, -, -, -, -, -, e⟩ := idx_facts t
  funext y
  have hy : (y 0).val < 256 := (y 0).isLt
  have ey : y = (ix1 (⟨(y 0).val, hy⟩ : Fin 256) : S256.Idx) := funext fun d => Fin.ext (by
    match d with
    | ⟨0, _⟩ => rfl)
  rw [ey]
  exact entry_eq m c t _ _ (by
    show win0_2.index t (0 : Fin 1) * 256 + 1 * (y 0).val = t.val * 256 + (y 0).val
    rw [e]; omega)

/-- An index of the result is in step t's block iff it is in the block's range. -/
theorem mem_blk (t : Fin cfg0.N) (i : S16384.Idx) :
    i ∈ ((cfg0.win 2).blk t).view.set ↔ ∀ a : Fin 1, win0_2.index t a * S256.size a ≤ (i a).val ∧ (i a).val < win0_2.index t a * S256.size a + S256.size a := by
  show i ∈ ((View.whole main_v12).slice (win0_2.rect t)).set ↔ _
  rw [View.set_slice_whole, Rect.mem_set_unit]
  exact Iff.rfl

/-- Every index of the result is in the block of step i div 256. -/
theorem cover (i : S16384.Idx) : ∃ t : Fin cfg0.N, (cfg0.win 2).flush t = true ∧ i ∈ ((cfg0.win 2).blk t).view.set := by
  have hi : (i 0).val < 16384 := (i 0).isLt
  have hN : cfg0.N = 64 := N_0
  obtain ⟨-, -, -, -, -, -, e⟩ := idx_facts ⟨(i 0).val / 256, by omega⟩
  refine ⟨⟨(i 0).val / 256, by omega⟩, flush0_2 _, ?_⟩
  rw [mem_blk]
  intro a
  match a with
  | ⟨0, _⟩ =>
    show win0_2.index ⟨(i 0).val / 256, _⟩ (0 : Fin 1) * 256 ≤ (i 0).val ∧ (i 0).val < win0_2.index ⟨(i 0).val / 256, _⟩ (0 : Fin 1) * 256 + 256
    rw [e]
    dsimp only
    omega

/-- THE RESULT ARRAY after the run. -/
theorem final (c : Dev nD) : (dats m 0 c).arrAt 2 cfg0.N = G (Aq m c) (Bk m c) :=
  (dats m 0 c).arrAt_eq_of_cover 2 (G (Aq m c) (Bk m c)) (fun t _ => flushed_eq m c t) (cover)

end Cert.Contextual.KernelArray

end
-- ==== Proof.Tail.lean ====
/-
  The last host operations, shared by both programs: from the [4, 4096] array of peaks T to the loss
  −log((0 + Σ (T + 1e-5)) / 16384).
-/
import proofs.«121038_j72670846648945_2_alg».proof.Proof.Gen.ReferenceIdeal
import Idealize.ShloMosaic.PureOps.Ideal

noncomputable section

namespace Cert.Contextual

open Idealize.ShloMosaic Cert.ReferenceIdeal

/-- The loss of an array of peaks. -/
def tail (T : FVec Ideal S4x4096 .f32) : FVec Ideal S_ .f32 :=
  Host.negf (Host.log (Host.divf
    (Host.reduceAdd (addf T (broadcastInDim S4x4096 ![] Facts₀.bcast_S_S4x4096 (constant (F := Ideal) S_ .f32 0x3727C5AC#32)))
      (constant (F := Ideal) S_ .f32 0x00000000#32) Facts₀.reducesTo_S4x4096_S_d0_1 Facts₀.h_S_)
    (constant (F := Ideal) S_ .f32 0x46800000#32)))

end Cert.Contextual

end
-- ==== Proof.KernelHost.lean ====
/-
  The kernel's program around its region: the two normalised arrays the region finds are the host's functions of the
  arguments, and the program's result is the loss of the result array viewed as [4, 4096].
-/
import proofs.«121038_j72670846648945_2_alg».proof.Proof.KernelArray
import proofs.«121038_j72670846648945_2_alg».proof.Proof.Tail
import proofs.«121038_j72670846648945_2_alg».proof.Proof.Gen.ReferenceIdeal.Read
import Idealize.ShloMosaic.Lib.StableHlo.Run
import Idealize.ShloMosaic.Lib.Pipeline.FrameSuffix

noncomputable section

namespace Cert.Contextual.KernelHost

open Idealize.ShloMosaic Idealize.ShloMosaic.TcCoe Idealize.SL.Sem Idealize.ShloMosaic.ValueIdx Idealize.ShloMosaic.StableHlo
open Cert.KernelIdeal Cert.KernelIdeal.Gen Cert.Contextual.KernelArray
open Idealize.ShloMosaic.Pipeline (Dat)

variable (m : (ℓ : Loc nD τ sig) → Buf (Elt Ideal) ℓ) (ρ : Dev nD → PrngReg)

/-- The first normalised array the region finds is the host's function of the first argument. -/
theorem V_v6 (c : Dev nD) :
    Aq m c = Cert.ReferenceIdeal.Read.val_main_v6 (F := Ideal) (m ((c : Thread nD τ).loc main_arg0)) := by
  show V m c main_v6 = _
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The second normalised array the region finds is the host's function of the second argument. -/
theorem V_v11 (c : Dev nD) :
    Bk m c = Cert.ReferenceIdeal.Read.val_main_v11 (F := Ideal) (m ((c : Thread nD τ).loc main_arg1)) := by
  show V m c main_v11 = _
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The program's result: the loss of the result array viewed as [4, 4096]. -/
theorem result_eq (c : Dev nD) :
    Pipeline.afterTail₀ cfgs (dats m) 0 (V0 m) [hostOps1] c main_v19
      = tail (shapeCast S4x4096 (G (Aq m c) (Bk m c)) Facts₀.shapeCasts_S16384_S4x4096) := by
  unfold Pipeline.afterTail₀
  show StableHlo.after hostOps1 _ (Proc.devRef .tc main_v19) = _
  after_results
  have hw : Pipeline.withArrays (cfgs 0).spec c (V0 m c) (fun w => (dats m 0 c).arrAt w (cfgs 0).N) (Proc.tc.devRef main_v12)
      = G (Aq m c) (Bk m c) :=
    (Pipeline.withArrays_arr spec0 launch0.win.arr_inj c _ _ 2).trans (final m c)
  rw [hw]
  rfl

/-- THE KERNEL'S RUN, read: the result at the loss of the result array, the arguments unchanged. -/
theorem run : θ_run defs (onTc (τ := τ) (main (F := Ideal))) ⟨m, fun _ => 0, ρ⟩ fun r => ∀ c : Dev nD,
      r.2.mem ((c.tc : Thread nD τ).loc main_v19)
        = tail (shapeCast S4x4096 (G (Aq m c) (Bk m c)) Facts₀.shapeCasts_S16384_S4x4096)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v19 (Pipeline.mem_restRefs_of main_v19 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.Contextual.KernelHost

end
-- ==== Proof.Consts.lean ====
/-
  The float words this kernel and its reference spell, as extended reals: 1, −∞, and the positive reals the words of
  1e-5, 0.1, 2 and 1e-12 denote (each the dyadic rational its sign, exponent and significand fields give).
-/
import Idealize.ShloMosaic.PureOps.Ideal.Laws

noncomputable section

namespace Cert.Contextual.Consts

open Idealize.ShloMosaic

/-- The word of 1.0 denotes 1. -/
theorem ofBits_one : Ideal.ofBits .f32 0x3F800000#32 = 1 := by
  have h : Ideal.ofBits .f32 0x3F800000#32 = ((1 : ℝ) : EReal) := by
    simp [Ideal.ofBits, Ideal.ieee, -EReal.coe_mul]
    norm_num
  rw [h, EReal.coe_one]

/-- The word of −∞ denotes ⊥. -/
theorem ofBits_ninf : Ideal.ofBits .f32 0xFF800000#32 = ⊥ := by
  simp [Ideal.ofBits, Ideal.ieee]

/-- The word of +∞ denotes ⊤. -/
theorem ofBits_pinf : Ideal.ofBits .f32 0x7F800000#32 = ⊤ := by
  simp [Ideal.ofBits, Ideal.ieee]

/-- The word the sources write 1e-5 denotes 10995116 · 2⁻⁴⁰. -/
theorem ofBits_eps : Ideal.ofBits .f32 0x3727C5AC#32 = ((10995116 * (2 : ℝ) ^ (-40 : ℤ) : ℝ) : EReal) := by
  simp [Ideal.ofBits, Ideal.ieee, -EReal.coe_mul]

/-- The word the sources write 0.1 denotes 13421773 · 2⁻²⁷. -/
theorem ofBits_sigma : Ideal.ofBits .f32 0x3DCCCCCD#32 = ((13421773 * (2 : ℝ) ^ (-27 : ℤ) : ℝ) : EReal) := by
  simp [Ideal.ofBits, Ideal.ieee, -EReal.coe_mul]

/-- The word of 2.0 denotes 2. -/
theorem ofBits_two : Ideal.ofBits .f32 0x40000000#32 = ((2 : ℝ) : EReal) := by
  simp [Ideal.ofBits, Ideal.ieee, -EReal.coe_mul]
  norm_num

/-- The word the sources write 1e-12 denotes 9223372 · 2⁻⁶³. -/
theorem ofBits_tiny : Ideal.ofBits .f32 0x2B8CBCCC#32 = ((9223372 * (2 : ℝ) ^ (-63 : ℤ) : ℝ) : EReal) := by
  simp [Ideal.ofBits, Ideal.ieee, -EReal.coe_mul]

theorem eps_pos : (0 : ℝ) < 10995116 * (2 : ℝ) ^ (-40 : ℤ) := by positivity
theorem sigma_pos : (0 : ℝ) < 13421773 * (2 : ℝ) ^ (-27 : ℤ) := by positivity
theorem tiny_pos : (0 : ℝ) < 9223372 * (2 : ℝ) ^ (-63 : ℤ) := by positivity

end Cert.Contextual.Consts

end
-- ==== Proof.LibSoftmaxPeak.lean ====
/-
  The largest entry of a softmax row, as the reciprocal of one sum of exponentials.

  For finitely many real distances d_j ≥ 0 with least value μ, and real constants e, s > 0, put c = μ + e and
  w_j = exp((1 − d_j / c) / s). The weights w_j decrease as d_j grows, so the largest of the normalised weights
  w_j / Σ_k w_k is the one at a j₀ with d_{j₀} = μ. Since (1 − d_k / c) / s = (1 − μ / c) / s + (μ − d_k) · (1 / (c · s)),
  every weight is w_{j₀} · exp((μ − d_k) / (c · s)); dividing by the positive number w_{j₀} gives
      max_j w_j / Σ_k w_k = 1 / Σ_k exp((μ − d_k) · (1 / (c · s))).
  The statement is over the extended reals with the operations of the ideal float instance, where the minimum is a fold
  of min from +∞, the maximum a fold of max from −∞, and a quotient by a nonzero real is the real quotient.
-/
import Idealize.ShloMosaic.PureOps.Ideal

noncomputable section

namespace Cert.LibSoftmaxPeak

open Idealize.ShloMosaic

variable {J : Type} [Fintype J]

/-- The inclusion of the reals in the extended reals carries a finite sum to the sum. -/
theorem coe_sum (s : Finset J) (f : J → ℝ) : ((∑ j ∈ s, f j : ℝ) : EReal) = ∑ j ∈ s, (f j : EReal) := by
  classical
  refine Finset.induction_on s (by simp) fun a s ha ih => ?_
  rw [Finset.sum_insert ha, Finset.sum_insert ha, EReal.coe_add, ih]

/-- A real divided by a nonzero real, in the extended reals, is the real quotient. -/
theorem div_coe_coe (x : ℝ) {y : ℝ} (hy : y ≠ 0) : Ideal.div (x : EReal) (y : EReal) = ((x / y : ℝ) : EReal) := by
  rw [Ideal.div_coe hy, ← EReal.coe_mul, mul_one_div]

/-- One divided by a nonzero real. -/
theorem one_div_coe {y : ℝ} (hy : y ≠ 0) : Ideal.div 1 (y : EReal) = ((1 / y : ℝ) : EReal) := by
  rw [← EReal.coe_one, div_coe_coe 1 hy]

/-- The least of finitely many (at least one) real numbers, computed in the extended reals by folding min from +∞, is
    one of them, and it is below every one of them. -/
theorem fold_min_coe [Nonempty J] (d : J → ℝ) :
    ∃ j0, Finset.univ.fold min (⊤ : EReal) (fun j => (d j : EReal)) = (d j0 : EReal) ∧ ∀ j, d j0 ≤ d j := by
  have hle : ∀ j, Finset.univ.fold min (⊤ : EReal) (fun j => (d j : EReal)) ≤ (d j : EReal) :=
    fun j => ((Finset.le_fold_min _).mp le_rfl).2 j (Finset.mem_univ j)
  rcases (Finset.fold_min_le _).mp (le_refl (Finset.univ.fold min (⊤ : EReal) (fun j => (d j : EReal)))) with h | ⟨j0, -, h⟩
  · exfalso
    obtain ⟨j⟩ := ‹Nonempty J›
    exact absurd (h.trans (hle j)) (not_le.mpr (EReal.coe_lt_top _))
  · have he := le_antisymm (hle j0) h
    refine ⟨j0, he, fun j => ?_⟩
    have := hle j
    rw [he] at this
    exact EReal.coe_le_coe_iff.mp this

/-- The peak of the normalised weights is the reciprocal of the sum of the shifted exponentials. -/
theorem peak_eq [Nonempty J] (d : J → ℝ) (e s : ℝ) (he : 0 < e) (hs : 0 < s) (hd : ∀ j, 0 ≤ d j)
    (m : EReal) (hm : m = Finset.univ.fold min (⊤ : EReal) (fun j => (d j : EReal))) :
    Ideal.div 1 (∑ j, Ideal.exp ((m - (d j : EReal)) * Ideal.div 1 ((m + (e : EReal)) * (s : EReal))))
      = Finset.univ.fold max (⊥ : EReal) (fun j =>
          Ideal.div (Ideal.exp (Ideal.div (1 - Ideal.div (d j : EReal) (m + (e : EReal))) (s : EReal)))
            (0 + ∑ k, Ideal.exp (Ideal.div (1 - Ideal.div (d k : EReal) (m + (e : EReal))) (s : EReal)))) := by
  obtain ⟨j0, hj0, hmin⟩ := fold_min_coe d
  have hm' : m = (d j0 : EReal) := hm.trans hj0
  have hc : 0 < d j0 + e := add_pos_of_nonneg_of_pos (hd j0) he
  have hc0 : d j0 + e ≠ 0 := ne_of_gt hc
  have hs0 : s ≠ 0 := ne_of_gt hs
  have hcs0 : (d j0 + e) * s ≠ 0 := mul_ne_zero hc0 hs0
  -- the kernel's exponent, a real number
  have hK : ∀ j, Ideal.exp ((m - (d j : EReal)) * Ideal.div 1 ((m + (e : EReal)) * (s : EReal)))
      = ((Real.exp ((d j0 - d j) * (1 / ((d j0 + e) * s))) : ℝ) : EReal) := fun j => by
    rw [hm', ← EReal.coe_add, ← EReal.coe_mul, one_div_coe hcs0, ← EReal.coe_sub, ← EReal.coe_mul]
    rfl
  -- the reference's weight, a real number
  have hE : ∀ j, Ideal.exp (Ideal.div (1 - Ideal.div (d j : EReal) (m + (e : EReal))) (s : EReal))
      = ((Real.exp ((1 - d j / (d j0 + e)) / s) : ℝ) : EReal) := fun j => by
    rw [hm', ← EReal.coe_add, div_coe_coe _ hc0, ← EReal.coe_one, ← EReal.coe_sub, div_coe_coe _ hs0]
    rfl
  have hKpos : 0 < ∑ j, Real.exp ((d j0 - d j) * (1 / ((d j0 + e) * s))) :=
    Finset.sum_pos (fun j _ => Real.exp_pos _) Finset.univ_nonempty
  have hWpos : 0 < ∑ k, Real.exp ((1 - d k / (d j0 + e)) / s) :=
    Finset.sum_pos (fun j _ => Real.exp_pos _) Finset.univ_nonempty
  -- every weight is the peak weight times the shifted exponential
  have hw : ∀ k, Real.exp ((1 - d k / (d j0 + e)) / s)
      = Real.exp ((1 - d j0 / (d j0 + e)) / s) * Real.exp ((d j0 - d k) * (1 / ((d j0 + e) * s))) := fun k => by
    rw [← Real.exp_add]
    congr 1
    field_simp
    ring
  have hW : ∑ k, Real.exp ((1 - d k / (d j0 + e)) / s)
      = Real.exp ((1 - d j0 / (d j0 + e)) / s) * ∑ k, Real.exp ((d j0 - d k) * (1 / ((d j0 + e) * s))) := by
    rw [Finset.mul_sum]
    exact Finset.sum_congr rfl fun k _ => hw k
  have hx := Real.exp_ne_zero ((1 - d j0 / (d j0 + e)) / s)
  have hpeak : 1 / ∑ j, Real.exp ((d j0 - d j) * (1 / ((d j0 + e) * s)))
      = Real.exp ((1 - d j0 / (d j0 + e)) / s) / ∑ k, Real.exp ((1 - d k / (d j0 + e)) / s) := by
    rw [hW]
    exact (mul_div_mul_left 1 (∑ j, Real.exp ((d j0 - d j) * (1 / ((d j0 + e) * s)))) hx).symm.trans (by rw [mul_one])
  have hKsum : (∑ j, Ideal.exp ((m - (d j : EReal)) * Ideal.div 1 ((m + (e : EReal)) * (s : EReal))))
      = ((∑ j, Real.exp ((d j0 - d j) * (1 / ((d j0 + e) * s))) : ℝ) : EReal) := by
    rw [coe_sum]
    exact Finset.sum_congr rfl fun j _ => hK j
  have hWsum : (0 + ∑ k, Ideal.exp (Ideal.div (1 - Ideal.div (d k : EReal) (m + (e : EReal))) (s : EReal)))
      = ((∑ k, Real.exp ((1 - d k / (d j0 + e)) / s) : ℝ) : EReal) := by
    rw [zero_add, coe_sum]
    exact Finset.sum_congr rfl fun j _ => hE j
  rw [hKsum, hWsum, one_div_coe (ne_of_gt hKpos)]
  rw [Finset.fold_congr (g := fun j => ((Real.exp ((1 - d j / (d j0 + e)) / s) / ∑ k, Real.exp ((1 - d k / (d j0 + e)) / s) : ℝ) : EReal))
    (fun j _ => by rw [hE j, div_coe_coe _ (ne_of_gt hWpos)])]
  apply le_antisymm
  · refine (Finset.le_fold_max _).mpr (Or.inr ⟨j0, Finset.mem_univ _, ?_⟩)
    rw [EReal.coe_le_coe_iff, hpeak]
  · refine (Finset.fold_max_le _).mpr ⟨bot_le, fun j _ => ?_⟩
    rw [EReal.coe_le_coe_iff, hpeak]
    have hjle : Real.exp ((1 - d j / (d j0 + e)) / s) ≤ Real.exp ((1 - d j0 / (d j0 + e)) / s) := by
      apply Real.exp_le_exp.mpr
      have := hmin j
      gcongr
    exact div_le_div_of_nonneg_right hjle (le_of_lt hWpos)

end Cert.LibSoftmaxPeak

end
-- ==== Proof.RowLaw.lean ====
/-
  On arrays of real numbers the kernel's value and the reference's value of a query position agree.

  With real entries every distance is a nonnegative real number, the words of 1e-5 and 0.1 denote positive reals, and
  the law of the softmax peak applies: the largest normalised weight is the reciprocal of the sum of the shifted
  exponentials.
-/
import proofs.«121038_j72670846648945_2_alg».proof.Proof.Spec
import proofs.«121038_j72670846648945_2_alg».proof.Proof.Consts
import proofs.«121038_j72670846648945_2_alg».proof.Proof.LibSoftmaxPeak

noncomputable section

namespace Cert.Contextual

open Idealize.ShloMosaic Idealize.ShloMosaic.ValueIdx Cert.LibSoftmaxPeak

/-- A sum of products of real numbers, in the extended reals, is the real sum. -/
theorem sum_mul_coe (a b : Fin 64 → ℝ) : ∑ c, (a c : EReal) * (b c : EReal) = ((∑ c, a c * b c : ℝ) : EReal) := by
  rw [coe_sum]
  exact Finset.sum_congr rfl fun c _ => (EReal.coe_mul _ _).symm

/-- The larger of a real number and zero, in the extended reals. -/
theorem max_coe_zero (z : ℝ) : max (z : EReal) 0 = ((max z 0 : ℝ) : EReal) := by
  rcases le_total z 0 with h | h
  · rw [max_eq_right h, max_eq_right (by exact_mod_cast h : (z : EReal) ≤ 0), EReal.coe_zero]
  · rw [max_eq_left h, max_eq_left (by exact_mod_cast h : (0 : EReal) ≤ z)]

/-- Between columns of real numbers the distance is a nonnegative real number. -/
theorem dist_real (x y : Fin 64 → EReal) (hx : ∀ c, ∃ r : ℝ, x c = r) (hy : ∀ c, ∃ r : ℝ, y c = r) :
    ∃ r : ℝ, 0 ≤ r ∧ dist x y = (r : EReal) := by
  choose a ha using hx
  choose b hb using hy
  obtain rfl : x = fun c => (a c : EReal) := funext ha
  obtain rfl : y = fun c => (b c : EReal) := funext hb
  refine ⟨Real.sqrt (max ((∑ c, a c * a c + ∑ c, b c * b c) - 2 * ∑ c, a c * b c) 0), Real.sqrt_nonneg _, ?_⟩
  unfold dist
  rw [Consts.ofBits_two, Ideal.ofBits_zero_f32, sum_mul_coe a a, sum_mul_coe b b, sum_mul_coe a b, ← EReal.coe_add,
    ← EReal.coe_mul, ← EReal.coe_sub, max_coe_zero, Ideal.sqrt_coe, if_neg (not_lt.mpr (le_max_right _ _))]

/-- On arrays of real numbers the two values of a query position agree. -/
theorem cxK_eq_cxR (A B : NArr) (hA : ∀ i, ∃ r : ℝ, A i = r) (hB : ∀ i, ∃ r : ℝ, B i = r) (b : Fin 4) (n : Fin 4096) :
    cxK A B b n = cxR A B b n := by
  have hD : ∀ j, ∃ r : ℝ, 0 ≤ r ∧ dist (col A b n) (col B b j) = (r : EReal) := fun j =>
    dist_real _ _ (fun c => hA _) (fun c => hB _)
  choose d hd0 hd using hD
  unfold cxK cxR
  rw [show (fun j => dist (col A b n) (col B b j)) = fun j => (d j : EReal) from funext hd]
  unfold peakK peakR rowMin
  rw [Consts.ofBits_one, Consts.ofBits_eps, Consts.ofBits_sigma, Consts.ofBits_pinf, Consts.ofBits_ninf,
    Ideal.ofBits_zero_f32]
  exact peak_eq d _ _ Consts.eps_pos Consts.sigma_pos hd0 _ rfl

end Cert.Contextual

end
-- ==== Proof.RefRow.lean ====
/-
  The reference, read at a query position: its array of peaks is the reference's peak of the distances between the
  columns of the two normalised arrays.

  Each host operation is read at an entry; the broadcasts along a kept unit axis only repeat an entry; the reductions by
  min and max are folds over the key positions.
-/
import proofs.«121038_j72670846648945_2_alg».proof.Proof.Gen.ReferenceIdeal.Read
import proofs.«121038_j72670846648945_2_alg».proof.Proof.Spec
import proofs.«121038_j72670846648945_2_alg».proof.Proof.LibRowFold
import Idealize.ShloMosaic.Lib.ValueIdx

noncomputable section

namespace Cert.Contextual.RefRow

open Idealize.ShloMosaic Idealize.ShloMosaic.ValueIdx Cert.ReferenceIdeal Cert.ReferenceIdeal.Read Cert.LibRowFold

variable (x0 x1 : (⟨S4x64x64x64, .f32⟩ : BufTy).Contents (Elt Ideal))

/-- The first argument, normalised along its channels. -/
abbrev An : NArr := val_main_v6 (F := Ideal) x0
/-- The second argument, normalised along its channels. -/
abbrev Bn : NArr := val_main_v11 (F := Ideal) x1

/-- The squared norm of query column (b, n). -/
theorem x2_apply (b : Fin 4) (n : Fin 4096) :
    val_main_v15 (F := Ideal) x0 (ix2 b n) = ∑ c : Fin 64, An x0 (ix3 b c n) * An x0 (ix3 b c n) := by
  refine (val_main_v15_apply x0 (ix2 b n)).trans ?_
  show Ideal.ofBits .f32 0x00000000#32 + _ = _
  rw [Ideal.ofBits_zero_f32, zero_add]
  refine Finset.sum_congr rfl fun c _ => ?_
  rw [val_main_v14_apply, val_main_v12_apply]
  have e : idx_main_v12 (idx_main_v15 (ix2 b n) c) = ix3 b c n := funext fun a => Fin.ext (by
    match a with
    | ⟨0, _⟩ => rfl
    | ⟨1, _⟩ => rfl
    | ⟨2, _⟩ => rfl)
  rw [e]
  rfl

/-- The squared norm of key column (b, j). -/
theorem y2_apply (b : Fin 4) (j : Fin 4096) :
    val_main_v18 (F := Ideal) x1 (ix2 b j) = ∑ c : Fin 64, Bn x1 (ix3 b c j) * Bn x1 (ix3 b c j) := by
  refine (val_main_v18_apply x1 (ix2 b j)).trans ?_
  show Ideal.ofBits .f32 0x00000000#32 + _ = _
  rw [Ideal.ofBits_zero_f32, zero_add]
  refine Finset.sum_congr rfl fun c _ => ?_
  rw [val_main_v17_apply, val_main_v13_apply]
  have e : idx_main_v13 (idx_main_v18 (ix2 b j) c) = ix3 b c j := funext fun a => Fin.ext (by
    match a with
    | ⟨0, _⟩ => rfl
    | ⟨1, _⟩ => rfl
    | ⟨2, _⟩ => rfl)
  rw [e]
  rfl

/-- The product of query column (b, n) and key column (b, j). -/
theorem dot_apply (b : Fin 4) (n j : Fin 4096) :
    val_main_v23 (F := Ideal) x0 x1 (ix3 b n j) = ∑ c : Fin 64, An x0 (ix3 b c n) * Bn x1 (ix3 b c j) := by
  refine (val_main_v23_apply x0 x1 (ix3 b n j)).trans ?_
  refine Finset.sum_congr rfl fun c _ => ?_
  rw [val_main_v12_apply, val_main_v13_apply]
  have el : idx_main_v12 (lidx_main_v23 (ix3 b n j) c) = ix3 b c n := funext fun a => Fin.ext (by
    match a with
    | ⟨0, _⟩ => rfl
    | ⟨1, _⟩ => rfl
    | ⟨2, _⟩ => rfl)
  have er : idx_main_v13 (ridx_main_v23 (ix3 b n j) c) = ix3 b c j := funext fun a => Fin.ext (by
    match a with
    | ⟨0, _⟩ => rfl
    | ⟨1, _⟩ => rfl
    | ⟨2, _⟩ => rfl)
  rw [el, er]

/-- The reference's distance between query position n and key position j of batch b. -/
theorem d_apply (b : Fin 4) (n j : Fin 4096) :
    val_main_v29 (F := Ideal) x0 x1 (ix3 b n j) = dist (col (An x0) b n) (col (Bn x1) b j) := by
  rw [val_main_v29_apply, val_main_v28_apply, val_main_v26_apply, val_main_v22_apply, val_main_v25_apply,
    val_main_v20_apply, val_main_v21_apply, val_main_v16_apply, val_main_v19_apply, val_main_v24_apply, val_main_v27_apply]
  have e1 : idx_main_v16 (idx_main_v20 (ix3 b n j)) = ix2 b n := funext fun a => Fin.ext (by
    match a with
    | ⟨0, _⟩ => rfl
    | ⟨1, _⟩ => rfl)
  have e2 : idx_main_v19 (idx_main_v21 (ix3 b n j)) = ix2 b j := funext fun a => Fin.ext (by
    match a with
    | ⟨0, _⟩ => rfl
    | ⟨1, _⟩ => rfl)
  rw [e1, e2, x2_apply, y2_apply, dot_apply]
  rfl

/-- Dropping the last axis of [4, 4096, 4096] leaves [4, 4096]. -/
theorem reduces_last : S4x4096x4096.Reduces [2] S4x4096 := by decide

/-- The least distance of query position (b, n). -/
theorem dmin_apply (b : Fin 4) (n : Fin 4096) :
    val_main_v30 (F := Ideal) x0 x1 (ix2 b n) = rowMin (fun j => val_main_v29 (F := Ideal) x0 x1 (ix3 b n j)) := by
  unfold val_main_v30 rowMin
  generalize val_main_v29 (F := Ideal) x0 x1 = y
  exact hostReduce_min_axis2_apply (φ := .f32) y (val_main_cst_5 (F := Ideal))
    Facts₀.reducesTo_S4x4096x4096_S4x4096_d2 reduces_last Facts₀.h_S_ b n

/-- The reference's weight of key position j for query position (b, n). -/
theorem w_apply (b : Fin 4) (n j : Fin 4096) :
    val_main_v40 (F := Ideal) x0 x1 (ix3 b n j)
      = Ideal.exp (Ideal.div (Ideal.ofBits .f32 0x3F800000#32
          - Ideal.div (val_main_v29 (F := Ideal) x0 x1 (ix3 b n j)) (val_main_v30 (F := Ideal) x0 x1 (ix2 b n) + Ideal.ofBits .f32 0x3727C5AC#32))
          (Ideal.ofBits .f32 0x3DCCCCCD#32)) := by
  rw [val_main_v40_apply, val_main_v39_apply, val_main_v37_apply, val_main_v35_apply, val_main_v34_apply, val_main_v33_apply,
    val_main_v31_apply, val_main_v36_apply, val_main_v38_apply, val_main_v32_apply]
  have e : idx_main_v31 (idx_main_v34 (ix3 b n j)) = ix2 b n := funext fun a => Fin.ext (by
    match a with
    | ⟨0, _⟩ => rfl
    | ⟨1, _⟩ => rfl)
  rw [e]
  rfl

/-- The sum of the weights of query position (b, n). -/
theorem wsum_apply (b : Fin 4) (n : Fin 4096) :
    val_main_v41 (F := Ideal) x0 x1 (ix2 b n)
      = Ideal.ofBits .f32 0x00000000#32 + ∑ k : Fin 4096, val_main_v40 (F := Ideal) x0 x1 (ix3 b n k) := by
  refine (val_main_v41_apply x0 x1 (ix2 b n)).trans ?_
  show Ideal.ofBits .f32 0x00000000#32 + _ = _
  refine congrArg (_ + ·) (Finset.sum_congr rfl fun k _ => ?_)
  exact congrArg _ (funext fun a => Fin.ext (by
    match a with
    | ⟨0, _⟩ => rfl
    | ⟨1, _⟩ => rfl
    | ⟨2, _⟩ => rfl))

/-- The normalised weight of key position j for query position (b, n). -/
theorem cx_apply (b : Fin 4) (n j : Fin 4096) :
    val_main_v44 (F := Ideal) x0 x1 (ix3 b n j)
      = Ideal.div (val_main_v40 (F := Ideal) x0 x1 (ix3 b n j)) (val_main_v41 (F := Ideal) x0 x1 (ix2 b n)) := by
  rw [val_main_v44_apply, val_main_v43_apply, val_main_v42_apply]
  have e : idx_main_v42 (idx_main_v43 (ix3 b n j)) = ix2 b n := funext fun a => Fin.ext (by
    match a with
    | ⟨0, _⟩ => rfl
    | ⟨1, _⟩ => rfl)
  rw [e]
  rfl

/-- The reference's array of peaks, at query position (b, n). -/
theorem peak_apply (b : Fin 4) (n : Fin 4096) :
    val_main_v45 (F := Ideal) x0 x1 (ix2 b n) = cxR (An x0) (Bn x1) b n := by
  have h : val_main_v45 (F := Ideal) x0 x1 (ix2 b n)
      = Finset.univ.fold max (Ideal.ofBits .f32 0xFF800000#32) (fun j => val_main_v44 (F := Ideal) x0 x1 (ix3 b n j)) := by
    unfold val_main_v45
    generalize val_main_v44 (F := Ideal) x0 x1 = y
    exact hostReduce_max_axis2_apply (φ := .f32) y (val_main_cst_10 (F := Ideal))
      Facts₀.reducesTo_S4x4096x4096_S4x4096_d2 reduces_last Facts₀.h_S_ b n
  rw [h]
  unfold cxR peakR
  have hD : (fun j => dist (col (An x0) b n) (col (Bn x1) b j)) = fun j => val_main_v29 (F := Ideal) x0 x1 (ix3 b n j) :=
    funext fun j => (d_apply x0 x1 b n j).symm
  rw [hD, ← dmin_apply]
  refine Finset.fold_congr fun j _ => ?_
  rw [cx_apply, wsum_apply, w_apply]
  refine congrArg _ (congrArg _ (Finset.sum_congr rfl fun k _ => ?_))
  rw [w_apply]

end Cert.Contextual.RefRow

end
-- ==== Proof.LibFiniteAll.lean ====
/-
  A precondition's "every entry is finite", read back at the extended reals.

  Such a conjunct is printed as the reduction by "and", over a whole array, of the entrywise test |x| < +∞, from the
  constant 1, and the claim says the result is 1. The word of +∞ denotes ⊤; the absolute value of x is max x (−x) and the
  comparison is the order's; so the test at an entry says x is neither infinity, that is a real number. A reduction by
  "and" into one result that came out 1 met a 1 at every entry.
-/
import Idealize.ShloMosaic.Lib.ReduceAll
import Idealize.ShloMosaic.Lib.ValueIdx
import Idealize.ShloMosaic.PureOps.Ideal.Laws

noncomputable section

namespace Cert.Lib.FiniteAll

open Idealize.ShloMosaic

instance : Subsingleton (⟨0, ![]⟩ : Shape).Idx := ⟨fun a b => funext fun d => d.elim0⟩

/-- The word of +∞ denotes ⊤. -/
theorem ofBits_inf : Ideal.ofBits .f32 0x7F800000#32 = ⊤ := by
  simp [Ideal.ofBits, Ideal.ieee]

/-- An extended real whose absolute value is below +∞ is a real number. -/
theorem real_of_abs_lt_inf (x : EReal)
    (h : Ideal.cmp .olt (max x (-x)) (Ideal.ofBits .f32 0x7F800000#32) = 1#1) : ∃ r : ℝ, x = (r : EReal) := by
  rw [ofBits_inf] at h
  have hlt : max x (-x) < ⊤ := by
    by_contra hc
    simp [Ideal.cmp, hc] at h
  induction x using EReal.rec with
  | bot => simp at hlt
  | top => simp at hlt
  | coe r => exact ⟨r, rfl⟩

/-- One conjunct of the precondition: the reduction by "and" of the entrywise test came out 1, so every entry of the
    array is a real number. -/
theorem real_of_all {S : Shape} {axes : List (Fin S.rank)} (x : FVec Ideal S .f32)
    (hb : (⟨0, ![]⟩ : Shape).BroadcastsInDim S (![] : Fin 0 → Fin S.rank)) (hr : S.ReducesTo axes (⟨0, ![]⟩ : Shape)) (h0 : 0 < (⟨0, ![]⟩ : Shape).numel)
    (h : Host.reduce IntOp.andi (cmpf .olt (Host.absf x) (broadcastInDim S ![] hb (constant (⟨0, ![]⟩ : Shape) .f32 0x7F800000#32)))
        (constantI (⟨0, ![]⟩ : Shape) 1 1#1) hr h0 ValueIdx.ix0 = 1#1) (i : S.Idx) : ∃ r : ℝ, x i = (r : EReal) :=
  real_of_abs_lt_inf (x i) (Host.reduce_andi_all _ _ hr h0 ValueIdx.ix0 h i)

end Cert.Lib.FiniteAll

end
-- ==== Proof.Finite.lean ====
/-
  Finite inputs give arrays of real numbers.

  The precondition says both arguments have only finite entries. Normalising along the channels divides each entry by the
  larger of the column's Euclidean norm and 1e-12: the sum of squares of reals is a nonnegative real, its square root a
  real, the larger of that and a positive real a positive real, and a real divided by a positive real is a real. So the
  two normalised arrays have only real entries.
-/
import proofs.«121038_j72670846648945_2_alg».proof.Proof.Gen.ReferenceIdeal.Read
import proofs.«121038_j72670846648945_2_alg».proof.Proof.Gen.Pre_finite_inputs
import proofs.«121038_j72670846648945_2_alg».proof.Proof.Consts
import proofs.«121038_j72670846648945_2_alg».proof.Proof.LibSoftmaxPeak
import proofs.«121038_j72670846648945_2_alg».proof.Proof.LibFiniteAll

noncomputable section

namespace Cert.Contextual.Finite

open Idealize.ShloMosaic Idealize.ShloMosaic.ValueIdx Cert.ReferenceIdeal Cert.ReferenceIdeal.Read Cert.LibSoftmaxPeak

/-- The larger of two real numbers, in the extended reals. -/
theorem max_coe_coe (a b : ℝ) : max (a : EReal) (b : EReal) = ((max a b : ℝ) : EReal) :=
  (EReal.coe_strictMono.monotone.map_max).symm

/-- The first argument, normalised: real entries from real entries. -/
theorem norm0_real (x : (⟨S4x64x64x64, .f32⟩ : BufTy).Contents (Elt Ideal)) (hx : ∀ i, ∃ r : ℝ, x i = (r : EReal))
    (i : S4x64x4096.Idx) : ∃ r : ℝ, val_main_v6 (F := Ideal) x i = (r : EReal) := by
  choose a ha using hx
  have h1 : ∀ j : S4x4096.Idx, ∃ q : ℝ, 0 ≤ q ∧ val_main_call0_v1 (F := Ideal) x j = (q : EReal) := fun j => by
    refine ⟨∑ k : Fin 64, a (idx_main_v0 (idx_main_call0_v1 j k)) * a (idx_main_v0 (idx_main_call0_v1 j k)),
      Finset.sum_nonneg fun k _ => mul_self_nonneg _, ?_⟩
    refine (val_main_call0_v1_apply x j).trans ?_
    show Ideal.ofBits .f32 0x00000000#32 + _ = _
    rw [Ideal.ofBits_zero_f32, zero_add, coe_sum]
    refine Finset.sum_congr rfl fun k _ => ?_
    rw [val_main_call0_v0_apply, val_main_v0_apply, ha, EReal.coe_mul]
    rfl
  obtain ⟨q, hq0, hq⟩ := h1 (idx_main_call0_v2 (idx_main_v5 i))
  refine ⟨a (idx_main_v0 i) / max (Real.sqrt q) (9223372 * (2 : ℝ) ^ (-63 : ℤ)), ?_⟩
  rw [val_main_v6_apply, val_main_v5_apply, val_main_v4_apply, val_main_v2_apply, val_main_call0_v2_apply, hq,
    val_main_v3_apply, val_main_v0_apply, ha]
  show Ideal.div _ (max (Ideal.sqrt (q : EReal)) (Ideal.ofBits .f32 0x2B8CBCCC#32)) = _
  rw [Ideal.sqrt_coe, if_neg (not_lt.mpr hq0), Consts.ofBits_tiny, max_coe_coe,
    div_coe_coe _ (ne_of_gt (lt_max_of_lt_right Consts.tiny_pos))]

/-- The second argument, normalised: real entries from real entries. -/
theorem norm1_real (x : (⟨S4x64x64x64, .f32⟩ : BufTy).Contents (Elt Ideal)) (hx : ∀ i, ∃ r : ℝ, x i = (r : EReal))
    (i : S4x64x4096.Idx) : ∃ r : ℝ, val_main_v11 (F := Ideal) x i = (r : EReal) := by
  choose a ha using hx
  have h1 : ∀ j : S4x4096.Idx, ∃ q : ℝ, 0 ≤ q ∧ val_main_call1_v1 (F := Ideal) x j = (q : EReal) := fun j => by
    refine ⟨∑ k : Fin 64, a (idx_main_v1 (idx_main_call1_v1 j k)) * a (idx_main_v1 (idx_main_call1_v1 j k)),
      Finset.sum_nonneg fun k _ => mul_self_nonneg _, ?_⟩
    refine (val_main_call1_v1_apply x j).trans ?_
    show Ideal.ofBits .f32 0x00000000#32 + _ = _
    rw [Ideal.ofBits_zero_f32, zero_add, coe_sum]
    refine Finset.sum_congr rfl fun k _ => ?_
    rw [val_main_call1_v0_apply, val_main_v1_apply, ha, EReal.coe_mul]
    rfl
  obtain ⟨q, hq0, hq⟩ := h1 (idx_main_call1_v2 (idx_main_v10 i))
  refine ⟨a (idx_main_v1 i) / max (Real.sqrt q) (9223372 * (2 : ℝ) ^ (-63 : ℤ)), ?_⟩
  rw [val_main_v11_apply, val_main_v10_apply, val_main_v9_apply, val_main_v7_apply, val_main_call1_v2_apply, hq,
    val_main_v8_apply, val_main_v1_apply, ha]
  show Ideal.div _ (max (Ideal.sqrt (q : EReal)) (Ideal.ofBits .f32 0x2B8CBCCC#32)) = _
  rw [Ideal.sqrt_coe, if_neg (not_lt.mpr hq0), Consts.ofBits_tiny, max_coe_coe,
    div_coe_coe _ (ne_of_gt (lt_max_of_lt_right Consts.tiny_pos))]

/-- The precondition, read back: both arguments have only real entries. -/
theorem real_of_pre (x y : FVec Ideal Cert.Pre_finite_inputs.S4x64x64x64 .f32)
    (h : Cert.Pre_finite_inputs.fn (F := Ideal) x y = fun _ => 1#1) :
    (∀ i, ∃ r : ℝ, x i = (r : EReal)) ∧ (∀ i, ∃ r : ℝ, y i = (r : EReal)) := by
  have h0 := congrFun h ValueIdx.ix0
  unfold Cert.Pre_finite_inputs.fn at h0
  dsimp only at h0
  obtain ⟨hx, hy⟩ := IntOp.andi_eq_one.mp h0
  exact ⟨Cert.Lib.FiniteAll.real_of_all x _ _ _ hx, Cert.Lib.FiniteAll.real_of_all y _ _ _ hy⟩

end Cert.Contextual.Finite

end
-- ==== Proof.Bridge.lean ====
/-
  The two losses agree.

  The kernel's result array, viewed as [4, 4096], holds at (b, n) the kernel's peak of query position n of batch b; on
  arrays of real numbers that is the reference's peak, which is entry (b, n) of the reference's array of peaks; and the
  same last host operations turn either array into the loss.
-/
import proofs.«121038_j72670846648945_2_alg».proof.Proof.KernelHost
import proofs.«121038_j72670846648945_2_alg».proof.Proof.RowLaw
import proofs.«121038_j72670846648945_2_alg».proof.Proof.RefRow
import proofs.«121038_j72670846648945_2_alg».proof.Proof.Finite
import proofs.«121038_j72670846648945_2_alg».proof.Proof.Tail

noncomputable section

namespace Cert.Contextual.Bridge

open Idealize.ShloMosaic Idealize.ShloMosaic.ValueIdx Cert.ReferenceIdeal.Read

/-- The result array viewed as [4, 4096]: entry (b, n) is the kernel's peak of query position n of batch b. -/
theorem G_apply (A B : NArr) (h : Cert.KernelIdeal.S16384.ShapeCasts Cert.KernelIdeal.S4x4096) (b : Fin 4) (n : Fin 4096) :
    shapeCast Cert.KernelIdeal.S4x4096 (KernelArray.G A B) h (ix2 b n) = cxK A B b n := by
  have hb : b.val < 4 := b.isLt
  have hn : n.val < 4096 := n.isLt
  refine (shapeCast_apply (KernelArray.G A B) h (ix2 b n) (ix1 (⟨b.val * 4096 + n.val, by omega⟩ : Fin 16384)) (by
    rw [Shape.rowMajor_val_one, Shape.rowMajor_val_two]
    rfl)).trans ?_
  unfold KernelArray.G
  exact congrArg₂ (cxK A B) (Fin.ext (by dsimp only; omega)) (Fin.ext (by dsimp only; omega))

/-- On arguments with real entries, the loss of the kernel's result array is the reference's loss. -/
theorem loss_eq (x0 x1 : (⟨Cert.ReferenceIdeal.S4x64x64x64, .f32⟩ : BufTy).Contents (Elt Ideal))
    (hx0 : ∀ i, ∃ r : ℝ, x0 i = (r : EReal)) (hx1 : ∀ i, ∃ r : ℝ, x1 i = (r : EReal))
    (h : Cert.KernelIdeal.S16384.ShapeCasts Cert.KernelIdeal.S4x4096) :
    tail (shapeCast Cert.KernelIdeal.S4x4096 (KernelArray.G (val_main_v6 (F := Ideal) x0) (val_main_v11 (F := Ideal) x1)) h)
      = val_main_v51 (F := Ideal) x0 x1 := by
  show _ = tail (val_main_v45 (F := Ideal) x0 x1)
  refine congrArg tail (funext fun i => ?_)
  obtain ⟨b, n, rfl⟩ : ∃ (b : Fin 4) (n : Fin 4096), i = ix2 b n := ⟨i 0, i 1, eq_ix2 i⟩
  rw [G_apply, cxK_eq_cxR _ _ (Finite.norm0_real x0 hx0) (Finite.norm1_real x1 hx1)]
  exact (RefRow.peak_apply x0 x1 b n).symm

end Cert.Contextual.Bridge

end
-- ==== Proof.lean ====
/-
  The certificate's claims, assembled.

  The kernel computes, per query position, 1 / Σ_j exp((d_min − d_j) / ((d_min + ε)·σ)); the reference the largest
  normalised softmax weight max_j w_j / Σ_k w_k with w_j = exp((1 − d_j / (d_min + ε)) / σ). Finite inputs make every
  normalised feature, hence every distance, a real number, and on real numbers the two expressions are equal (the peak
  weight sits at the least distance, and dividing by it gives the kernel's sum). Both programs then take the same mean and
  negated logarithm. The three frames are the generated runs; the ideal pass rewrote nothing.
-/
import proofs.«121038_j72670846648945_2_alg».proof.Defs
import proofs.«121038_j72670846648945_2_alg».proof.Proof.Gen.Kernel
import proofs.«121038_j72670846648945_2_alg».proof.Proof.Gen.Kernel.Skeleton
import proofs.«121038_j72670846648945_2_alg».proof.Proof.Gen.Kernel.Launch
import proofs.«121038_j72670846648945_2_alg».proof.Proof.Gen.Kernel.Points
import proofs.«121038_j72670846648945_2_alg».proof.Proof.Gen.Kernel.Frame
import proofs.«121038_j72670846648945_2_alg».proof.Proof.Gen.KernelIdeal
import proofs.«121038_j72670846648945_2_alg».proof.Proof.Gen.KernelIdeal.Skeleton
import proofs.«121038_j72670846648945_2_alg».proof.Proof.Gen.KernelIdeal.Launch
import proofs.«121038_j72670846648945_2_alg».proof.Proof.Gen.KernelIdeal.Points
import proofs.«121038_j72670846648945_2_alg».proof.Proof.Gen.KernelIdeal.Frame
import proofs.«121038_j72670846648945_2_alg».proof.Proof.Gen.ReferenceIdeal
import proofs.«121038_j72670846648945_2_alg».proof.Proof.Gen.Pre_finite_inputs
import proofs.«121038_j72670846648945_2_alg».proof.Proof.Gen.ReferenceIdeal.Run
import proofs.«121038_j72670846648945_2_alg».proof.Proof.Gen.ReferenceIdeal.Read
import proofs.«121038_j72670846648945_2_alg».proof.Proof.Bridge
import Idealize.ShloMosaic.Adequacy
import Idealize.ShloMosaic.Init

noncomputable section

namespace Cert.Proof

open Idealize.ShloMosaic Idealize.SL.Sem Cert.Contextual

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on finite arguments both idealized programs end at the same loss. -/
theorem algebraic : Cert.algebraic_KernelIdeal_ReferenceIdeal := by
  intro m ρ m' ρ' hpre hagree
  refine ⟨fun c => tail (shapeCast Cert.KernelIdeal.S4x4096
      (KernelArray.G (KernelArray.Aq m c) (KernelArray.Bk m c)) Cert.KernelIdeal.Facts₀.shapeCasts_S16384_S4x4096),
    KernelHost.run m ρ, ?_⟩
  refine (θ_run Cert.ReferenceIdeal.defs _ _).mono (fun _ h c => ⟨(h c).1.trans ?_, (h c).2⟩)
    (Cert.ReferenceIdeal.Value.run (F := Ideal) m' ρ')
  obtain ⟨hx0, hx1⟩ := Finite.real_of_pre _ _ (hpre c)
  rw [Cert.ReferenceIdeal.Read.val_main_v51_eq, (hagree c).1, (hagree c).2]
  show _ = tail (shapeCast Cert.KernelIdeal.S4x4096
    (KernelArray.G (KernelArray.Aq m c) (KernelArray.Bk m c)) Cert.KernelIdeal.Facts₀.shapeCasts_S16384_S4x4096)
  rw [KernelHost.V_v6, KernelHost.V_v11]
  exact (Bridge.loss_eq _ _ hx0 hx1 _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
